-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S16384x64 : Shape := ⟨2, ![16384, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S1000000x64 .f32) (main_arg1 : FVec F S16384x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S1000000x64 : Shape := ⟨2, ![1000000, 64]⟩
abbrev S16384x64 : Shape := ⟨2, ![16384, 64]⟩
abbrev S64x1000000 : Shape := ⟨2, ![64, 1000000]⟩
abbrev S64x32768 : Shape := ⟨2, ![64, 32768]⟩
abbrev S64x16384 : Shape := ⟨2, ![64, 16384]⟩
abbrev S2x16384 : Shape := ⟨2, ![2, 16384]⟩
abbrev S_ : Shape := ⟨0, ![]⟩

abbrev nBuf : Table → Nat
  | .hbm => 7
  | .local .tc .vmem => 4
  | .local .scVector .vmem => 1
  | _ => 0

abbrev bufTy : (tb : Table) → Fin (nBuf tb) → BufTy
  | .hbm, ⟨0, _⟩ => ⟨S1000000x64, .f32⟩
  | .hbm, ⟨1, _⟩ => ⟨S16384x64, .f32⟩
  | .hbm, ⟨2, _⟩ => ⟨S64x1000000, .f32⟩
  | .hbm, ⟨3, _⟩ => ⟨S64x1000000, .f32⟩
  | .hbm, ⟨4, _⟩ => ⟨S64x16384, .f32⟩
  | .hbm, ⟨5, _⟩ => ⟨S64x1000000, .f32⟩
  | .hbm, ⟨6, _⟩ => ⟨S1000000x64, .f32⟩
  | .local .tc .vmem, ⟨0, _⟩ => ⟨S64x32768, .f32⟩
  | .local .tc .vmem, ⟨1, _⟩ => ⟨S64x32768, .f32⟩
  | .local .tc .vmem, ⟨2, _⟩ => ⟨S64x32768, .f32⟩
  | .local .tc .vmem, ⟨3, _⟩ => ⟨S64x32768, .f32⟩
  | .local .scVector .vmem, ⟨0, _⟩ => ⟨S2x16384, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => true
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v3_scv : Ref sig .scVector := ⟨.hbm, 5, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_4_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  transposes_S16384x64_S64x16384_1_0 : S16384x64.Transposes [1, 0] S64x16384
  transposes_S64x1000000_S1000000x64_1_0 : S64x1000000.Transposes [1, 0] S1000000x64
  hcc1_scratch1 : 4 + S_.numel ≤ 6
  hcc1_scoped0 : 5 + S_.numel ≤ 6
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x32768.size a < S64x1000000.size a
  hwx0_1 : ∀ i : grid0.Coords, EltTy.bits .f32 = 32 ∨ (Rect.unit (s := S64x1000000) (fun a => cc0_transform_1 i a * S64x32768.size a) (fun a => (Pipeline.Clip.of (cc0_transform_1 i a) (S64x32768.size a) (S64x1000000.size a)).extent (S64x32768.size a)) fun a => Pipeline.Clip.inb (Pipeline.Clip.ok_of (hstart0_1 i a))).WholeWords (EltTy.packing .f32)
  hwxs0_1 : ∀ i : grid0.Coords, EltTy.bits .f32 = 32 ∨ (Rect.unit (s := S64x32768) (fun _ => 0) (fun a => (Pipeline.Clip.of (cc0_transform_1 i a) (S64x32768.size a) (S64x1000000.size a)).extent (S64x32768.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S2x16384.size a ≤ S64x16384.size a
  k1_off2_inb : ∀ i : grid1.Coords, ∀ a, (k1_off2 i) a + S2x16384.size a ≤ S64x1000000.size a

variable [Facts₀]

abbrev cc1_scratch1 : DmaSems sig S_ := SemArray.consecutive 4 S_ hcc1_scratch1
abbrev cc1_scoped0 : DmaSems sig S_ := SemArray.consecutive 5 S_ hcc1_scoped0

abbrev win0_0 : Pipeline.Window sig grid0 :=
  Pipeline.Window.ofSpecClip (Memref.whole main_v0) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S64x32768.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S16384x64 : Shape := ⟨2, ![16384, 64]⟩
abbrev S16384 : Shape := ⟨1, ![16384]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384x64, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S_, .i1⟩
  | .hbm, ⟨22, _⟩ => ⟨S16384, .i1⟩
  | .hbm, ⟨23, _⟩ => ⟨S16384, .i1⟩
  | .hbm, ⟨24, _⟩ => ⟨S16384, .i1⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  scatter_S1000000x64_S16384x1_S16384x64_1_0_0_1_wf : ScatterDims.WF S1000000x64 S16384x1 S16384x64 [1] [0] [0] 1

variable [Facts₀]

def scatter_S1000000x64_S16384x1_S16384x64_1_0_0_1 : ScatterDims S1000000x64 S16384x1 S16384x64 where
  updateWindowDims := [1]
  insertedWindowDims := [0]
  scatterDimsToOperandDims := [0]
  indexVectorDim := 1
  wf := scatter_S1000000x64_S16384x1_S16384x64_1_0_0_1_wf

class Facts : Prop extends Facts₀ where

variable [Facts]
-- ==== Proof.Spec.lean ====
/-
  The memory bank after a push, as one function of the two argument arrays.

  A bank of 1000000 rows of 64 numbers receives 16384 new rows at its front: row `r` of the result is row `r` of the
  pushed values when `r < 16384`, and the bank's own row `r` otherwise. Nothing is computed with the numbers; the
  statement is the same over any type of entries (machine words or extended reals).
-/
import Idealize.ShloMosaic.Lib.ValueIdx

namespace Cert.Push

open Idealize.ShloMosaic Idealize.ShloMosaic.ValueIdx

/-- The bank's shape: 1000000 rows of 64. -/
abbrev SBank : Shape := ⟨2, ![1000000, 64]⟩
/-- The pushed values' shape: 16384 rows of 64. -/
abbrev SVals : Shape := ⟨2, ![16384, 64]⟩

/-- The bank after the push: rows below 16384 come from the values, the others stay. -/
def pushed {α : Type} (bank : SBank.Idx → α) (vals : SVals.Idx → α) : SBank.Idx → α :=
  fun i => if h : (i 0).val < 16384 then vals (ix2 (⟨(i 0).val, h⟩ : Fin 16384) (i 1 : Fin 64)) else bank i

theorem pushed_lt {α : Type} (bank : SBank.Idx → α) (vals : SVals.Idx → α) (r : Fin 1000000) (c : Fin 64) (h : r.val < 16384) :
    pushed bank vals (ix2 r c) = vals (ix2 (⟨r.val, h⟩ : Fin 16384) c) := by
  unfold pushed; exact dif_pos h

theorem pushed_ge {α : Type} (bank : SBank.Idx → α) (vals : SVals.Idx → α) (r : Fin 1000000) (c : Fin 64) (h : ¬ r.val < 16384) :
    pushed bank vals (ix2 r c) = bank (ix2 r c) := by
  unfold pushed; exact dif_neg h

end Cert.Push
-- ==== Proof.SpecT.lean ====
/-
  The push seen through the transposition the kernel works under.

  The kernel keeps both arrays transposed: the bank as 64 rows of 1000000 numbers, the values as 64 rows of 16384.
  Pushing then overwrites the first 16384 entries of every row of the transposed bank with the corresponding row of the
  transposed values: entry `(r, c)` of the result is entry `(r, c)` of the transposed values when `c < 16384` and the
  bank's own entry otherwise. Transposing back gives the push of the untransposed arrays (`transpose_pushedT`).
-/
import Idealize.ShloMosaic.Lib.ValueIdx
import Idealize.ShloMosaic.Lib.Pipeline.Value
import proofs.«210832_g59760174956807_cont_9to1_m_134_14_alg».proof.Proof.Spec

namespace Cert.Push

open Idealize.ShloMosaic Idealize.ShloMosaic.ValueIdx

/-- The transposed bank's shape: 64 rows of 1000000. -/
abbrev SBankT : Shape := ⟨2, ![64, 1000000]⟩
/-- The transposed values' shape: 64 rows of 16384. -/
abbrev SValsT : Shape := ⟨2, ![64, 16384]⟩

/-- The transposed bank after the push: in every row the entries below column 16384 come from the transposed values. -/
def pushedT {α : Type} (bankT : SBankT.Idx → α) (valsT : SValsT.Idx → α) : SBankT.Idx → α :=
  fun i => if h : (i 1).val < 16384 then valsT (ix2 (i 0 : Fin 64) (⟨(i 1).val, h⟩ : Fin 16384)) else bankT i

theorem pushedT_lt {α : Type} (bankT : SBankT.Idx → α) (valsT : SValsT.Idx → α) (i : SBankT.Idx) (h : (i 1).val < 16384) :
    pushedT bankT valsT i = valsT (ix2 (i 0 : Fin 64) (⟨(i 1).val, h⟩ : Fin 16384)) := by
  unfold pushedT; exact dif_pos h

theorem pushedT_ge {α : Type} (bankT : SBankT.Idx → α) (valsT : SValsT.Idx → α) (i : SBankT.Idx) (h : ¬ (i 1).val < 16384) :
    pushedT bankT valsT i = bankT i := by
  unfold pushedT; exact dif_neg h

/-- Transposing the pushed transposed bank back is the push of the arrays themselves: entry `(r, c)` of the result reads
    entry `(c, r)` of the pushed transposed bank, which below column `r < 16384` is entry `(c, r)` of the transposed
    values, that is entry `(r, c)` of the values, and otherwise entry `(c, r)` of the transposed bank, entry `(r, c)` of
    the bank. -/
theorem transpose_pushedT {α : Type} (bank : SBank.Idx → α) (vals : SVals.Idx → α)
    (hA : SBank.Transposes [1, 0] SBankT) (hV : SVals.Transposes [1, 0] SValsT) (hB : SBankT.Transposes [1, 0] SBank) :
    transpose SBank [1, 0] (pushedT (transpose SBankT [1, 0] bank hA) (transpose SValsT [1, 0] vals hV)) hB = pushed bank vals := by
  funext j
  obtain ⟨r, c, rfl⟩ : ∃ (r : Fin 1000000) (c : Fin 64), j = ix2 r c := ⟨j 0, j 1, eq_ix2 j⟩
  rw [transpose_apply [1, 0] _ hB (ix2 r c) (ix2 c r) (by intro b; match b with | ⟨0, _⟩ => rfl | ⟨1, _⟩ => rfl)]
  by_cases h : r.val < 16384
  · rw [pushedT_lt _ _ (ix2 c r) h, pushed_lt _ _ r c h]
    exact transpose_apply [1, 0] vals hV _ (ix2 (⟨r.val, h⟩ : Fin 16384) c) (by intro b; match b with | ⟨0, _⟩ => rfl | ⟨1, _⟩ => rfl)
  · rw [pushedT_ge _ _ (ix2 c r) h, pushed_ge _ _ r c h]
    exact transpose_apply [1, 0] bank hA _ (ix2 r c) (by intro b; match b with | ⟨0, _⟩ => rfl | ⟨1, _⟩ => rfl)

end Cert.Push
-- ==== Proof.PushSlabsW.lean ====
/-
  The push kernel's tiles, one at a time.

  The SparseCore kernel runs on 2 × 16 vector subcores. Tile `(c, s)` owns rows `4 s + 2 c` and `4 s + 2 c + 1` of the
  transposed arrays: it copies those two rows of the transposed values (64 × 16384) into its scratch, waits, and copies
  the scratch onto the first 16384 columns of the same two rows of the transposed bank (64 × 1000000), and waits.
  Nothing else touches those entries meanwhile, and each copy is waited for before the next starts, so after the task
  the two half-rows hold the pushed bank's entries (`dst_value`: an index equation — the written entries sit at the same
  row and column of the transposed values). This module states that task once, at a symbolic tile, for any float
  instance: from the two slabs (the values' at their contents, the bank's at its contents) and the subcore's own
  storage, to the two slabs with the bank's at the pushed contents.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210832_g59760174956807_cont_9to1_m_134_14_alg».proof.Proof.Gen.Kernel
import proofs.«210832_g59760174956807_cont_9to1_m_134_14_alg».proof.Proof.Gen.Kernel.Skeleton
import proofs.«210832_g59760174956807_cont_9to1_m_134_14_alg».proof.Proof.Gen.Kernel.Launch
import proofs.«210832_g59760174956807_cont_9to1_m_134_14_alg».proof.Proof.SpecT

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays and one tile's slabs -/

abbrev vLoc (d : Dev nD) : Loc nD τ sig := (SparseCore.T d).loc main_v2
abbrev oLoc (d : Dev nD) : Loc nD τ sig := (SparseCore.T d).loc main_v3

local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

abbrev cV (L : grid1.Coords) : Fin τ.nSC := (L 0).castLE hcore1
abbrev jV (L : grid1.Coords) : Fin τ.nSub := (L 1).castLE hsub1

/-- The two rows of the transposed values a tile reads, and the two half-rows of the transposed bank it writes. -/
abbrev srcR (L : grid1.Coords) : Rect S64x16384 := Rect.unit (s := S64x16384) (k1_off1 L) S2x16384.size (k1_off1_inb L)
abbrev dstR (L : grid1.Coords) : Rect S64x1000000 := Rect.unit (s := S64x1000000) (k1_off2 L) S2x16384.size (k1_off2_inb L)
abbrev srcM (L : grid1.Coords) : Memref sig .scVector .hbm S2x16384 .f32 := (vW).slice (srcR L) (fun _ => rfl)
abbrev dstM (L : grid1.Coords) : Memref sig .scVector .hbm S2x16384 .f32 := (oW).slice (dstR L) (fun _ => rfl)
abbrev srcSet (L : grid1.Coords) : Finset S64x16384.Idx := (srcM L).view.set
abbrev dstSet (L : grid1.Coords) : Finset S64x1000000.Idx := (dstM L).view.set

abbrev c1cell (d : Dev nD) (c : Fin τ.nSC) (i : Fin τ.nSub) : GSem nD τ sig := (V d c i, .dma cc1_scratch1.sem)
abbrev c2cell (d : Dev nD) (c : Fin τ.nSC) (i : Fin τ.nSub) : GSem nD τ sig := (V d c i, .dma cc1_scoped0.sem)

variable [FloatOps F]

section Tile
variable (d : Dev nD) (L : grid1.Coords)

omit [FloatOps F] in
theorem ownSems0_V :
    (ownSems0 (V d (cV L) (jV L)) : sProp 𝕄)
      = iprop(semVal (c1cell d (cV L) (jV L)) 0 ∗ semVal (c2cell d (cV L) (jV L)) 0
          ∗ bigSep (((ownCells (V d (cV L) (jV L))).erase (c1cell d (cV L) (jV L))).erase (c2cell d (cV L) (jV L))) fun g => semVal g 0) := by
  unfold SparseCore.Cfg.ownSems0
  rw [SparseCore.bigSep_erase' ((mem_ownCells (g := c1cell d (cV L) (jV L))).mpr ⟨rfl, by
      show (SemLoc.dma cc1_scratch1.sem : SemLoc sig).isScoped .scVector = true; decide⟩),
    SparseCore.bigSep_erase' (Finset.mem_erase.mpr ⟨by simp [c1cell, c2cell]; decide, (mem_ownCells (g := c2cell d (cV L) (jV L))).mpr ⟨rfl, by
      show (SemLoc.dma cc1_scoped0.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L))
    (b := (Proc.scVector (cV L) (jV L)).devRef cc1_scratch0) rfl)]

omit [FloatOps F] in
theorem pts_src (f : Buf (Elt F) (vLoc d)) :
    (((srcM L).view.loc (V d (cV L) (jV L)) ↦[(srcM L).view.set]{fullShare} f : sProp 𝕄)) = (vLoc d ↦[srcSet L]{fullShare} f) := rfl
omit [FloatOps F] in
theorem pts_dst (f : Buf (Elt F) (oLoc d)) :
    (((dstM L).view.loc (V d (cV L) (jV L)) ↦[(dstM L).view.set]{fullShare} f : sProp 𝕄)) = (oLoc d ↦[dstSet L]{fullShare} f) := rfl
omit [FloatOps F] in
theorem pts_sB (f : Buf (Elt F) ((V d (cV L) (jV L)).loc cc1_scratch0)) :
    (((sB).view.loc (V d (cV L) (jV L)) ↦{fullShare} f : sProp 𝕄)) = ((V d (cV L) (jV L)).loc cc1_scratch0 ↦{fullShare} f) := rfl

omit [FloatOps F] in
/-- A tile's two half-rows of the transposed bank, once written with the two rows of the transposed values it read,
    hold the pushed bank's entries there: the written entries lie in columns below 16384, at the same row and column
    of the transposed values. -/
theorem dst_value (vT : Buf (Elt F) (vLoc d)) (bT : Buf (Elt F) (oLoc d)) (X : S2x16384.Idx → Elt F .f32)
    (hX : ∀ y, X y = vT ((srcM L).view.emb y)) :
    ∀ i ∈ dstSet L, (dstM L).view.writes (Elt F) bT [⟨Rect.whole S2x16384, X⟩] i = Cert.Push.pushedT bT vT i := by
  intro i hi
  obtain ⟨y, rfl⟩ := View.exists_emb_of_mem_set (dstM L).view hi
  have h1 : (dstM L).view.read (Elt F) ((dstM L).view.writes (Elt F) bT [⟨Rect.whole S2x16384, X⟩]) ((Rect.whole S2x16384).emb y) = X y :=
    View.read_writes_cons_emb (dstM L).view bT (Rect.whole S2x16384) X [] y
  rw [Rect.emb_whole_apply] at h1
  have h2 : (dstM L).view.writes (Elt F) bT [⟨Rect.whole S2x16384, X⟩] ((dstM L).view.emb y) = X y :=
    ((View.read_apply _ _).trans (cast_eq _ _)).symm.trans h1
  rw [h2, hX]
  have e0d : (((dstM L).view.emb y) 0).val = (k1_off2 L) 0 + 1 * (y 0).val := rfl
  have e1d : (((dstM L).view.emb y) 1).val = (k1_off2 L) 1 + 1 * (y 1).val := rfl
  have e0s : (((srcM L).view.emb y) 0).val = (k1_off1 L) 0 + 1 * (y 0).val := rfl
  have e1s : (((srcM L).view.emb y) 1).val = (k1_off1 L) 1 + 1 * (y 1).val := rfl
  rw [k1_off2_eq] at e0d e1d
  rw [k1_off1_eq] at e0s e1s
  have hy1 : (y 1).val < 16384 := (y 1).isLt
  have hc : (((dstM L).view.emb y) 1).val < 16384 := by rw [e1d]; simp; exact hy1
  rw [Cert.Push.pushedT_lt _ _ _ hc]
  refine congrArg vT ?_
  funext a
  match a with
  | ⟨0, _⟩ => apply Fin.ext; show (((srcM L).view.emb y) 0).val = (((dstM L).view.emb y) 0).val; rw [e0s, e0d]
  | ⟨1, _⟩ => apply Fin.ext; show (((srcM L).view.emb y) 1).val = (((dstM L).view.emb y) 1).val; rw [e1s, e1d]

/-- The task of tile `L` on device `d`: the two rows of the transposed values into the scratch, the scratch onto the
    bank's two half-rows, each copy waited for; the bank's slab ends at the pushed contents. -/
theorem tile_body (hF : (K (F := F)).Facts) (vT : Buf (Elt F) (vLoc d)) (bT : Buf (Elt F) (oLoc d))
    (O : CellTallies nD τ sig (HIx 1)) (W : Waits sig (HIx 1)) (hO : ∀ g, O g none = 0) :
    (iprop(levAts (K (F := F)).L (K (F := F)).lev ∗ emp
        ∗ ((vLoc d ↦[srcSet L]{fullShare} vT) ∗ (oLoc d ↦[dstSet L]{fullShare} bT))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__push L oW (Memref.isWhole_whole _) vW (Memref.isWhole_whole _) oW (Memref.isWhole_whole _) sB (Memref.isWhole_whole _) cc1_scratch1 cc1_scoped0)
          fun _ => iprop(((vLoc d ↦[srcSet L]{fullShare} vT) ∗ (oLoc d ↦[dstSet L]{fullShare} Cert.Push.pushedT bT vT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__push_eq_skeleton]; unfold cc1__push_skel
  rw [(K (F := F)).scopedBufs_V hF d (cV L) (jV L), SparseCore.Cfg.scopedSems0_V (Val := Elt F) d (cV L) (jV L), ownSems0_V, ownBufs_V]
  iintro ⟨#Hlv, -, ⟨Hsrc, Hdst⟩, ⟨⟨%fs, Hs⟩, Hbufs⟩, ⟨Hsem1, Hsem2, Hsems⟩, HO⟩
  ihave Hmw := ((K (F := F)).mayWaits_none (thr := V d (cV L) (jV L)) hO) $$ Hlv
  ihave Hsrc' := (Entails.of_eq (pts_src (F := F) d L _).symm) $$ Hsrc
  ihave Hdst' := (Entails.of_eq (pts_dst (F := F) d L _).symm) $$ Hdst
  ihave Hs' := (Entails.of_eq (pts_sB (F := F) d L _).symm) $$ Hs
  sl_exec
  have hX : ∀ y, tile_body.sl.dma0_1 d L vT fs y = vT ((srcM L).view.emb y) := by
    intro y
    unfold tile_body.sl.dma0_1 tile_body.sl.dma0
    rw [ReadAs.apply_same, ReadAs.apply_same]
    simp only [Memref.view_whole, View.write_whole_univ, View.read_whole]
    exact (View.read_apply _ _).trans (cast_eq _ _)
  rw [wp_ret]; imodintro
  ihave Hsrc := (Entails.of_eq (pts_src (F := F) d L _)) $$ Hsrc'
  ihave Hdst := (Entails.of_eq ((pts_dst (F := F) d L _).trans (pointsTo_congr (dst_value d L vT bT _ hX)))) $$ Hdst'
  ihave Hs := (Entails.of_eq (pts_sB (F := F) d L _)) $$ Hs'
  isplitl [Hsrc Hdst]
  · isplitl [Hsrc]; · iexact Hsrc
    iexact Hdst
  isplitl [Hs Hbufs]
  · isplitl [Hs]; · iexists _; iexact Hs
    iexact Hbufs
  isplitl [Hsem1 Hsem2 Hsems]
  · isplitl [Hsem1]; · iexact Hsem1
    isplitl [Hsem2]; · iexact Hsem2
    iexact Hsems
  iexists _; isplitr
  swap; · iexact HO
  ipureintro; intro p hp
  rcases Finset.mem_insert.mp hp with rfl | hp
  · exact .inr rfl
  rcases Finset.mem_insert.mp hp with rfl | hp
  · exact .inr rfl
  · exact .inl hp

end Tile

end Cert.Kernel.Push

end
-- ==== Proof.PushSplitW.lean ====
/-
  Which entries each tile owns, and what the launch's handshakes carry.

  Tile `(c, s)` owns rows `4 s + 2 c` and `4 s + 2 c + 1`: of the transposed values all 16384 columns, of the transposed
  bank the columns below 16384. The 32 row pairs are pairwise disjoint and cover the 64 rows (`r` belongs to the tile
  with `s = r / 4`, `c = (r mod 4) / 2`), so the transposed values split exactly into the tiles' slabs and the
  transposed bank into the tiles' slabs and the part at columns from 16384 on, which no tile touches and where the
  pushed bank is the old one. The TensorCore hands each SparseCore its sixteen tiles' slabs with the start signal and
  gets them back with the bank's slabs at the pushed contents; the sequencer deals them to the tiles one each.
-/
import proofs.«210832_g59760174956807_cont_9to1_m_134_14_alg».proof.Proof.PushSlabsW

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

/-! ## A tile's coordinates, and membership in its slabs -/

def coordsV (c : Fin (grid1.bound 0)) (s : Fin (grid1.bound 1)) : grid1.Coords :=
  fun | 0 => c | 1 => s | ⟨_ + 2, h⟩ => absurd h (Nat.not_lt.2 (Nat.le_add_left _ _))

theorem srcSet_eq (L : grid1.Coords) : srcSet L = (srcR L).set := by
  show ((View.whole (main_v2_scv : Ref sig .scVector)).slice (srcR L)).set = _
  rw [View.set_slice]; exact Finset.map_refl
theorem dstSet_eq (L : grid1.Coords) : dstSet L = (dstR L).set := by
  show ((View.whole (main_v3_scv : Ref sig .scVector)).slice (dstR L)).set = _
  rw [View.set_slice]; exact Finset.map_refl

theorem mem_srcR (L : grid1.Coords) (i : S64x16384.Idx) :
    i ∈ (srcR L).set ↔ ∀ a, (k1_off1 L) a ≤ i a ∧ (i a : Nat) < (k1_off1 L) a + S2x16384.size a := Rect.mem_set_unit
theorem mem_dstR (L : grid1.Coords) (i : S64x1000000.Idx) :
    i ∈ (dstR L).set ↔ ∀ a, (k1_off2 L) a ≤ i a ∧ (i a : Nat) < (k1_off2 L) a + S2x16384.size a := Rect.mem_set_unit

/-- An entry of the transposed values is tile `L`'s exactly when its row is one of the tile's two. -/
theorem mem_srcSet (L : grid1.Coords) (i : S64x16384.Idx) :
    i ∈ srcSet L ↔ 4 * (L 1).val + 2 * (L 0).val ≤ (i 0).val ∧ (i 0).val < 4 * (L 1).val + 2 * (L 0).val + 2 := by
  rw [srcSet_eq, mem_srcR, k1_off1_eq]
  have h1 : (i 1).val < 16384 := (i 1).isLt
  constructor
  · intro h; have h0 := h 0; simpa using h0
  · intro h a
    match a with
    | ⟨0, _⟩ => simpa using h
    | ⟨1, _⟩ => simpa using h1

/-- An entry of the transposed bank is tile `L`'s exactly when its row is one of the tile's two and its column is below 16384. -/
theorem mem_dstSet (L : grid1.Coords) (i : S64x1000000.Idx) :
    i ∈ dstSet L ↔ (4 * (L 1).val + 2 * (L 0).val ≤ (i 0).val ∧ (i 0).val < 4 * (L 1).val + 2 * (L 0).val + 2) ∧ (i 1).val < 16384 := by
  rw [dstSet_eq, mem_dstR, k1_off2_eq]
  constructor
  · intro h; have h0 := h 0; have h1 := h 1; exact ⟨by simpa using h0, by simpa using h1⟩
  · intro h a
    match a with
    | ⟨0, _⟩ => simpa using h.1
    | ⟨1, _⟩ => simpa using h.2

/-! ## The 32 tiles' slabs: disjoint, and what they cover -/

abbrev Tiles : Type := Fin 2 × Fin 16
abbrev tileL (t : Tiles) : grid1.Coords := coordsV t.1 t.2
abbrev srcOf (t : Tiles) : Finset S64x16384.Idx := srcSet (tileL t)
abbrev dstOf (t : Tiles) : Finset S64x1000000.Idx := dstSet (tileL t)

theorem tile_eq_of_rows {t t' : Tiles} {r : Nat}
    (h : 4 * t.2.val + 2 * t.1.val ≤ r ∧ r < 4 * t.2.val + 2 * t.1.val + 2)
    (h' : 4 * t'.2.val + 2 * t'.1.val ≤ r ∧ r < 4 * t'.2.val + 2 * t'.1.val + 2) : t = t' := by
  have a1 := t.1.isLt; have a2 := t'.1.isLt
  exact Prod.ext (Fin.ext (by omega)) (Fin.ext (by omega))

theorem src_disjoint : ∀ t ∈ (Finset.univ : Finset Tiles), ∀ t' ∈ (Finset.univ : Finset Tiles), t ≠ t' → Disjoint (srcOf t) (srcOf t') :=
  fun t _ t' _ hne => Finset.disjoint_left.mpr fun i h1 h2 =>
    hne (tile_eq_of_rows ((mem_srcSet (tileL t) i).mp h1) ((mem_srcSet (tileL t') i).mp h2))
theorem dst_disjoint : ∀ t ∈ (Finset.univ : Finset Tiles), ∀ t' ∈ (Finset.univ : Finset Tiles), t ≠ t' → Disjoint (dstOf t) (dstOf t') :=
  fun t _ t' _ hne => Finset.disjoint_left.mpr fun i h1 h2 =>
    hne (tile_eq_of_rows ((mem_dstSet (tileL t) i).mp h1).1 ((mem_dstSet (tileL t') i).mp h2).1)

/-- The tile that owns row `r`. -/
def tileOfRow (r : Fin 64) : Tiles := (⟨(r.val % 4) / 2, by omega⟩, ⟨r.val / 4, by omega⟩)
theorem tileOfRow_rows (r : Fin 64) :
    4 * (tileOfRow r).2.val + 2 * (tileOfRow r).1.val ≤ r.val ∧ r.val < 4 * (tileOfRow r).2.val + 2 * (tileOfRow r).1.val + 2 := by
  show 4 * (r.val / 4) + 2 * ((r.val % 4) / 2) ≤ r.val ∧ r.val < 4 * (r.val / 4) + 2 * ((r.val % 4) / 2) + 2
  omega

theorem src_cover : (Finset.univ : Finset Tiles).biUnion srcOf = Finset.univ := by
  ext i
  simp only [Finset.mem_biUnion, Finset.mem_univ, true_and, iff_true]
  exact ⟨tileOfRow (i 0), (mem_srcSet _ i).mpr (tileOfRow_rows (i 0))⟩

/-- The part of the transposed bank the tiles write: the columns below 16384. -/
abbrev front : Finset S64x1000000.Idx := (Finset.univ : Finset Tiles).biUnion dstOf
theorem mem_front (i : S64x1000000.Idx) : i ∈ front ↔ (i 1).val < 16384 := by
  simp only [Finset.mem_biUnion, Finset.mem_univ, true_and]
  constructor
  · rintro ⟨t, ht⟩; exact ((mem_dstSet _ i).mp ht).2
  · intro h; exact ⟨tileOfRow (i 0), (mem_dstSet _ i).mpr ⟨tileOfRow_rows (i 0), h⟩⟩

/-! ## What the handshakes carry -/

variable (vT : (d : Dev nD) → Buf (Elt F) (vLoc d)) (bT : (d : Dev nD) → Buf (Elt F) (oLoc d))

/-- Tile `t`'s two slabs as handed over: the values' rows and the bank's half-rows at the contents of the call; -/
abbrev slabIn (d : Dev nD) (t : Tiles) : sProp 𝕄 :=
  iprop((vLoc d ↦[srcOf t]{fullShare} vT d) ∗ (oLoc d ↦[dstOf t]{fullShare} bT d))
/-- and as handed back: the bank's half-rows at the pushed contents. -/
abbrev slabOut (d : Dev nD) (t : Tiles) : sProp 𝕄 :=
  iprop((vLoc d ↦[srcOf t]{fullShare} vT d) ∗ (oLoc d ↦[dstOf t]{fullShare} Cert.Push.pushedT (bT d) (vT d)))

/-- The one call hands SparseCore `c` its sixteen tiles' slabs, each tile its own, and brings them back with the bank's
    at the pushed contents. -/
def P : (K (F := F)).Pay (nD := nD) (Val := Elt F) (Name := ℕ) (U := UU) where
  st := fun q d c => match q with | 0 => bigSep Finset.univ fun i : Fin 16 => slabIn vT bT d (Fin.cast nCore_zero c, i)
  dn := fun q d c => match q with | 0 => bigSep Finset.univ fun i : Fin 16 => slabOut vT bT d (Fin.cast nCore_zero c, i)
  go := fun q d c i => match q with | 0 => slabIn vT bT d (Fin.cast nCore_zero c, Fin.cast nSub_zero i)
  td := fun q d c i => match q with | 0 => slabOut vT bT d (Fin.cast nCore_zero c, Fin.cast nSub_zero i)
  x := fun _ _ => iprop(emp)

instance P_storable : (P (F := F) vT bT).IsStorable where
  st q d c := match q with
    | 0 => (inferInstance : BI.Storable (upEmb : UEmb _ 𝕄) (bigSep Finset.univ fun i : Fin 16 => slabIn vT bT d (Fin.cast nCore_zero c, i)))
  dn q d c := match q with
    | 0 => (inferInstance : BI.Storable (upEmb : UEmb _ 𝕄) (bigSep Finset.univ fun i : Fin 16 => slabOut vT bT d (Fin.cast nCore_zero c, i)))
  go q d c i := match q with
    | 0 => (inferInstance : BI.Storable (upEmb : UEmb _ 𝕄) (slabIn vT bT d (Fin.cast nCore_zero c, Fin.cast nSub_zero i)))
  td q d c i := match q with
    | 0 => (inferInstance : BI.Storable (upEmb : UEmb _ 𝕄) (slabOut vT bT d (Fin.cast nCore_zero c, Fin.cast nSub_zero i)))

/-! ## The launch theorem's obligations for the one vector-subcore call -/

variable [FloatOps F]

theorem defs₀_vector (c : Fin τ.nSC) (s : Fin τ.nSub) :
    defs₀ (F := F) (.scVector c s) 1 ()
      = SparseCore.onTile hcore1 hsub1 (fun c s => cc1__push (coordsV c s) oW (Memref.isWhole_whole _) vW (Memref.isWhole_whole _) oW (Memref.isWhole_whole _)
          sB (Memref.isWhole_whole _) cc1_scratch1 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P vT bT) v₀ 0 := by
  intro d c i O W hO _ _
  simp only [show (P vT bT).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF (vT d) (bT d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P vT bT) 0 := by
  intro d c
  show (bigSep Finset.univ fun i : Fin 16 => slabIn vT bT d (Fin.cast nCore_zero c, i)) ⊢ |={Set.univ}=> iprop(
      (bigSep Finset.univ fun i : Fin ((K (F := F)).nSub 0) => slabIn vT bT d (Fin.cast nCore_zero c, Fin.cast nSub_zero i))
      ∗ ((bigSep Finset.univ fun i : Fin ((K (F := F)).nSub 0) => slabOut vT bT d (Fin.cast nCore_zero c, Fin.cast nSub_zero i))
          -∗ bigSep Finset.univ fun i : Fin 16 => slabOut vT bT d (Fin.cast nCore_zero c, i)))
  rw [bigSep_tasks (F := F) (fun i => slabIn vT bT d (Fin.cast nCore_zero c, i)),
    bigSep_tasks (F := F) (fun i => slabOut vT bT d (Fin.cast nCore_zero c, i))]
  iintro H; imodintro
  isplitl [H]; · iexact H
  iintro H; iexact H

/-! ## The TensorCore's side: the whole arrays dealt into the tiles' slabs and put back together -/

omit [FloatOps F] in
theorem st0_eq (d : Dev nD) :
    (bigSep Finset.univ fun c : Fin ((K (F := F)).nCore 0) => (P vT bT).st 0 d c) = bigSep (Finset.univ : Finset Tiles) (slabIn vT bT d) := by
  show (bigSep Finset.univ fun c : Fin ((K (F := F)).nCore 0) => bigSep Finset.univ fun i : Fin 16 => slabIn vT bT d (Fin.cast nCore_zero c, i)) = _
  rw [bigSep_cores (F := F) (fun c => bigSep Finset.univ fun i : Fin 16 => slabIn vT bT d (c, i)), ← Finset.univ_product_univ, SparseCore.bigSep_product]
omit [FloatOps F] in
theorem dn0_eq (d : Dev nD) :
    (bigSep Finset.univ fun c : Fin ((K (F := F)).nCore 0) => (P vT bT).dn 0 d c) = bigSep (Finset.univ : Finset Tiles) (slabOut vT bT d) := by
  show (bigSep Finset.univ fun c : Fin ((K (F := F)).nCore 0) => bigSep Finset.univ fun i : Fin 16 => slabOut vT bT d (Fin.cast nCore_zero c, i)) = _
  rw [bigSep_cores (F := F) (fun c => bigSep Finset.univ fun i : Fin 16 => slabOut vT bT d (c, i)), ← Finset.univ_product_univ, SparseCore.bigSep_product]

omit [FloatOps F] in
/-- The transposed values whole are the 32 tiles' row pairs. -/
theorem vals_slabs (d : Dev nD) (f : Buf (Elt F) (vLoc d)) :
    (vLoc d ↦{fullShare} f : sProp 𝕄) = bigSep (Finset.univ : Finset Tiles) fun t => vLoc d ↦[srcOf t]{fullShare} f := by
  rw [← pointsTo_biUnion Finset.univ (ℓ := vLoc d) srcOf src_disjoint, src_cover]; try rfl
omit [FloatOps F] in
/-- The transposed bank's columns below 16384 are the 32 tiles' half-row pairs. -/
theorem front_slabs (d : Dev nD) (f : Buf (Elt F) (oLoc d)) :
    (oLoc d ↦[front]{fullShare} f : sProp 𝕄) = bigSep (Finset.univ : Finset Tiles) fun t => oLoc d ↦[dstOf t]{fullShare} f :=
  pointsTo_biUnion Finset.univ (ℓ := oLoc d) dstOf dst_disjoint

omit [FloatOps F] in
/-- Away from the columns below 16384 the pushed bank is the old one. -/
theorem pushedT_back (d : Dev nD) (b : Buf (Elt F) (oLoc d)) (v : Buf (Elt F) (vLoc d)) :
    ∀ i ∈ (Finset.univ \ front : Finset S64x1000000.Idx), b i = Cert.Push.pushedT b v i := by
  intro i hi
  have hn : ¬ (i 1).val < 16384 := fun h => (Finset.mem_sdiff.mp hi).2 ((mem_front i).mpr h)
  exact (Cert.Push.pushedT_ge b v i hn).symm

end Cert.Kernel.Push

end
-- ==== Proof.PushHostW.lean ====
/-
  The TensorCore's seven arrays, and one host operation over two of them.

  @main of the kernel program holds seven arrays in HBM: the bank and the values as given, their transposes, the
  transposed bank as the block copy leaves it, the array the tiles write into, and the result. Between the program's
  steps the TensorCore holds each of them whole, at contents this proof names; a host operation `y := f x` needs only
  `x` and `y` and leaves `x` as it was and `y` at `f` of `x`'s contents.
-/
import proofs.«210832_g59760174956807_cont_9to1_m_134_14_alg».proof.Proof.PushSplitW

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

variable [FloatOps F]

/-! ## The seven arrays as the TensorCore names them -/

abbrev a0Loc (d : Dev nD) : Loc nD τ sig := (SparseCore.T d).loc main_arg0
abbrev a1Loc (d : Dev nD) : Loc nD τ sig := (SparseCore.T d).loc main_arg1
abbrev t0Loc (d : Dev nD) : Loc nD τ sig := (SparseCore.T d).loc main_v0
abbrev t1Loc (d : Dev nD) : Loc nD τ sig := (SparseCore.T d).loc main_v1
abbrev r4Loc (d : Dev nD) : Loc nD τ sig := (SparseCore.T d).loc main_v4

omit [FloatOps F] in
/-- The TensorCore's unscoped buffers are the seven arrays, one by one. -/
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (t0Loc d ↦{fullShare} W main_v0)
          ∗ (t1Loc d ↦{fullShare} W main_v1) ∗ (vLoc d ↦{fullShare} W main_v2) ∗ (oLoc d ↦{fullShare} W main_v3) ∗ (r4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## A host operation `y := f x` over two arrays held whole -/

/-- The valuation that reads `fx` at `x` and `fy` at `y` (and the launch memory elsewhere: never read). -/
def val2 (m : (ℓ : Loc nD τ sig) → Buf (Elt F) ℓ) (d : Dev nD) (x y : Ref sig .tc)
    (fx : x.ty.Contents (Elt F)) (fy : y.ty.Contents (Elt F)) : Valuation τ sig (Elt F) :=
  Function.update (Function.update (fun b => m (d, b)) (Proc.devRef .tc x) fx) (Proc.devRef .tc y) fy

theorem wp_unary (m : (ℓ : Loc nD τ sig) → Buf (Elt F) ℓ) (d : Dev nD) (x y : Ref sig .tc)
    (hxy : (Proc.devRef .tc x : DevRef τ sig) ≠ Proc.devRef .tc y)
    (f : x.ty.Contents (Elt F) → y.ty.Contents (Elt F)) (hx hy)
    (fx : x.ty.Contents (Elt F)) (fy : y.ty.Contents (Elt F)) {Λ : Labels} {defs : Defs nD τ sig (Elt F) Λ} {𝒱 : Variants} {bd : Option 𝒱.V} {E : Set ℕ}
    {α : Type} (k : Prog (TpuEff nD τ sig (Elt F) Λ (SparseCore.T d).2) α) (Q : α → sProp 𝕄) :
    iprop(boundary (SparseCore.T d) ∗ (((d, Proc.devRef .tc x) : Loc nD τ sig) ↦{fullShare} fx) ∗ (((d, Proc.devRef .tc y) : Loc nD τ sig) ↦{fullShare} fy)
        ∗ ((boundary (SparseCore.T d) ∗ (((d, Proc.devRef .tc x) : Loc nD τ sig) ↦{fullShare} fx) ∗ (((d, Proc.devRef .tc y) : Loc nD τ sig) ↦{fullShare} f fx))
            -∗ wp frame (wpE defs 𝒱 (SparseCore.T d) bd) E k Q))
      ⊢ wp frame (wpE defs 𝒱 (SparseCore.T d) bd) E (hlo rfl (StableHlo.unary x y f hx hy) (fun _ => k)) Q := by
  have hS : (StableHlo.unary (τ := τ) x y f hx hy).bufs ⊆ ({Proc.devRef .tc x, Proc.devRef .tc y} : Finset (DevRef τ sig)) := by
    rw [StableHlo.unary_bufs]
  have hheld : ∀ W : Valuation τ sig (Elt F),
      (held (SparseCore.T d) ({Proc.devRef .tc x, Proc.devRef .tc y} : Finset (DevRef τ sig)) W : sProp 𝕄)
        = iprop((((d, Proc.devRef .tc x) : Loc nD τ sig) ↦{fullShare} W (Proc.devRef .tc x)) ∗ (((d, Proc.devRef .tc y) : Loc nD τ sig) ↦{fullShare} W (Proc.devRef .tc y))) := by
    intro W; unfold held
    rw [SparseCore.bigSep_insert' (by rw [Finset.mem_singleton]; exact hxy), bigSep_singleton]
  have hVx : val2 m d x y fx fy (Proc.devRef .tc x) = fx := by
    unfold val2; rw [Function.update_of_ne hxy, Function.update_self]
  have hVy : val2 m d x y fx fy (Proc.devRef .tc y) = fy := by
    unfold val2; rw [Function.update_self]
  have hne : x ≠ y := fun e => hxy (congrArg _ e)
  have hres : (held (SparseCore.T d) ({Proc.devRef .tc x, Proc.devRef .tc y} : Finset (DevRef τ sig))
        ((StableHlo.unary (τ := τ) x y f hx hy).result (val2 m d x y fx fy)) : sProp 𝕄)
      = iprop((((d, Proc.devRef .tc x) : Loc nD τ sig) ↦{fullShare} fx) ∗ (((d, Proc.devRef .tc y) : Loc nD τ sig) ↦{fullShare} f fx)) := by
    rw [hheld, StableHlo.unary_result', StableHlo.unary_result_ne' (h := hne), hVx]
  iintro ⟨Hb, Hx, Hy, Hk⟩
  iapply (wp_hlo_within 𝒱 (SparseCore.T d) bd E (op := StableHlo.unary x y f hx hy) (S := {Proc.devRef .tc x, Proc.devRef .tc y}) hS (V := val2 m d x y fx fy)) $$ [Hb Hx Hy]
  · isplitl [Hb]; · iexact Hb
    rw [hheld, hVx, hVy]
    isplitl [Hx]; · iexact Hx
    iexact Hy
  iintro ⟨Hb, Hh⟩
  ihave Hh' := (Entails.of_eq hres) $$ Hh
  icases Hh' with ⟨Hx, Hy⟩
  iapply Hk
  isplitl [Hb]; · iexact Hb
  isplitl [Hx]; · iexact Hx
  iexact Hy

end Cert.Kernel.Push

end
-- ==== Proof.TailCopyWord.lean ====
/-
  The TensorCore region of the kernel program: a pipelined copy of a 64 × 1000000 array of f32 in 31 column
  blocks of 32768, the last of which overhangs the array's end by 15808 columns.

  At each grid point the body loads the whole input staging block and stores it, unchanged, into the output
  staging block. The fetch of the last block lands only the 16960 columns inside the array; the rest of the
  staging block then holds words nothing names, and the write-back of the last block writes only the 16960
  columns inside the array. Both windows are therefore described on the part of the block inside the array only.

  This module gives, for any contents `V` of the core's buffers when the region is entered, any region invariant
  `P`, any tallies `O` owed throughout and any bound `B` on the recorded waits (the body reads none of them):
    * the proof data `dat`: the arrays at `V`; after the body at point `t` both staging blocks hold block `t`
      of the input array, filled out past the array's end with the zero word;
    * what the body finds (`before_in`, `before_out`): the input's staging block just fetched, the output's at
      anything;
    * the body's triple over any two whole staging memrefs (`sound_kernel`) and the pipeline's body obligation in
      the loose form (`body_obligation`);
    * the same at the class invariant `Pipeline.ΦA spec0 c` (`dat0`, `body_obligation0`).
-/
import proofs.«210832_g59760174956807_cont_9to1_m_134_14_alg».proof.Proof.Gen.Kernel.Launch
import proofs.«210832_g59760174956807_cont_9to1_m_134_14_alg».proof.Proof.Gen.Kernel.Skeleton
import proofs.«210832_g59760174956807_cont_9to1_m_134_14_alg».proof.Proof.Gen.Kernel.Points
import Idealize.ShloMosaic.Lib.Pipeline.FrameBody
import Idealize.ShloMosaic.Lib.Pipeline.Value
import Idealize.ShloMosaic.Lib.Tactic

noncomputable section

namespace Cert.Kernel.TailCopy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type}

local notation "𝕄" => MT nD τ sig Ix (Elt F) Name U Lvl

-- the core's buffer contents when the region is entered
variable (V : (c : Dev nD) → (b : Ref sig .tc) → Buf (Elt F) ((c : Thread nD τ).loc b))

/-! ## The proof data -/

/-- Block `t` of the input array as the fetch at point `t` reads it: its part inside the array (all 32768 columns
    at points 0‥29, the first 16960 at point 30). -/
def blk (c : Dev nD) (t : Fin cfg0.N) : (win0_0.xblock (grid0.coords t)).Idx → Elt F .f32 :=
  (win0_0.blk t).view.read (Elt F) (V c main_v0)

/-- The same filled out to a whole staging block: past the array's end, where no obligation states anything, the
    zero word. -/
def blkFull (c : Dev nD) (t : Fin cfg0.N) : S64x32768.Idx → Elt F .f32 :=
  win0_0.fill (grid0.coords t) (fun _ => Scalar.ofBits .f32 0#32) (blk V c t)

variable (Name U Lvl) in
/-- The proof data of the pipeline on core `c`: the arrays as the region finds them; after the body at point `t`
    the input's staging block still at block `t` of the input array and the output's at the same block; the
    invariant `P`, the owed tallies `O` and the bound `B` on the recorded waits the same at every point (the body touches
    none of them); full shares. -/
def dat (P : sProp 𝕄) (O : CellTallies nD τ sig Ix) (B : Set (SemLoc sig × Ix)) (c : Dev nD) : Dat τ (Elt F) Ix Name U Lvl cfg0 c where
  A w := V c (Pipeline.arrRef spec0 w)
  after w t := match w with
    | ⟨0, _⟩ => blkFull V c t
    | ⟨1, _⟩ => blkFull V c t
  Φ _ := P
  q _ := fullShare
  owed _ := O
  recorded _ := B

theorem A_eq (P : sProp 𝕄) (O : CellTallies nD τ sig Ix) (B : Set (SemLoc sig × Ix)) (c : Dev nD) (w : Fin cfg0.W) :
    (dat Name U Lvl V P O B c).A w = V c (Pipeline.arrRef spec0 w) := by dsimp only [dat]
theorem after_in (P : sProp 𝕄) (O : CellTallies nD τ sig Ix) (B : Set (SemLoc sig × Ix)) (c : Dev nD) (t : Fin cfg0.N) :
    (dat Name U Lvl V P O B c).after 0 t = blkFull V c t := by dsimp only [dat]
theorem after_out (P : sProp 𝕄) (O : CellTallies nD τ sig Ix) (B : Set (SemLoc sig × Ix)) (c : Dev nD) (t : Fin cfg0.N) :
    (dat Name U Lvl V P O B c).after 1 t = blkFull V c t := by dsimp only [dat]

/-- The invariant, the owed tallies and the bound are the parameters at every point, and every array is held at the
    full share. -/
theorem Φ_eq (P : sProp 𝕄) (O : CellTallies nD τ sig Ix) (B : Set (SemLoc sig × Ix)) (c : Dev nD) (t : Fin (cfg0.N + 1)) :
    (dat Name U Lvl V P O B c).Φ t = P := rfl
theorem owed_eq (P : sProp 𝕄) (O : CellTallies nD τ sig Ix) (B : Set (SemLoc sig × Ix)) (c : Dev nD) (t : Fin (cfg0.N + 1)) :
    (dat Name U Lvl V P O B c).owed t = O := rfl
theorem recorded_eq (P : sProp 𝕄) (O : CellTallies nD τ sig Ix) (B : Set (SemLoc sig × Ix)) (c : Dev nD) (t : Fin (cfg0.N + 1)) :
    (dat Name U Lvl V P O B c).recorded t = B := rfl
theorem share_full (P : sProp 𝕄) (O : CellTallies nD τ sig Ix) (B : Set (SemLoc sig × Ix)) (c : Dev nD) (w : Fin cfg0.W) :
    (dat Name U Lvl V P O B c).share w = fullShare :=
  (dat Name U Lvl V P O B c).share_full (fun _ => rfl) w

/-- Cut back to the part inside the array, the filled-out block is the block. -/
theorem cut_blkFull (c : Dev nD) (t : Fin cfg0.N) : win0_0.cut (grid0.coords t) (blkFull V c t) = blk V c t :=
  win0_0.cut_fill _ _ _

/-! ## What the body finds -/

/-- The input's staging block is fetched at every point: it holds block `t` on the columns inside the array and
    `d`, anything, past the array's end. -/
theorem before_in (P : sProp 𝕄) (O : CellTallies nD τ sig Ix) (B : Set (SemLoc sig × Ix)) (c : Dev nD) (t : Fin cfg0.N) (d) :
    (dat Name U Lvl V P O B c).before 0 t d = win0_0.fill (grid0.coords t) d (blk V c t) := by
  unfold Dat.before; rw [if_pos (fetch0_0 t)]; rfl

/-- The output's staging block is written back at every point: at the first point, and after each write-back, it
    holds anything. -/
theorem before_out (P : sProp 𝕄) (O : CellTallies nD τ sig Ix) (B : Set (SemLoc sig × Ix)) (c : Dev nD) (t : Fin cfg0.N) (d) :
    (dat Name U Lvl V P O B c).before 1 t d = d :=
  (dat Name U Lvl V P O B c).before_out_reset 1 rfl t
    (by by_cases h : t.val = 0
        · exact .inl h
        · exact .inr ⟨h, flush0_1 _⟩) d

/-! ## The body -/

/-- The offsets of the body's three accesses are zero on both axes. -/
theorem off_zero : (![0, 0] : Fin 2 → Nat) = fun _ => 0 := funext fun a => by fin_cases a <;> rfl

/-- The body on whole staging memrefs, the input's reading `X` and the output's reading anything: it runs to the
    continuation with the input's as it was and the output's reading `X` too. Its two loads and its store are
    through the whole block, so the load reads `X`, the shape cast to the same shape is the identity, and the one
    store covers the block and leaves its payload. -/
theorem sound_kernel [Preorder Lvl] (c : Dev nD) (E : Set Name) (i : grid0.Coords)
    (arg1 : Memref sig .tc .vmem S64x32768 .f32) (harg1 : arg1.IsWhole)
    (arg2 : Memref sig .tc .vmem S64x32768 .f32) (harg2 : arg2.IsWhole)
    (X : Vec F S64x32768 .f32) (K : PUnit → sProp 𝕄) :
    iprop(owns (c : Thread nD τ) arg1 fullShare X ∗ (∃ d, owns (c : Thread nD τ) arg2 fullShare d)
        ∗ (iprop(owns (c : Thread nD τ) arg1 fullShare X ∗ owns (c : Thread nD τ) arg2 fullShare X) -∗ K ⟨⟩))
      ⊢ wp frame (wpE (defs₀ (F := F)) Variants.none c none) E (cc0__tail_copy_body i arg1 harg1 arg2 harg2) K := by
  simp only [cc0__tail_copy_body_eq_skeleton]; unfold cc0__tail_copy_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (View.cover_of_tiled _ S64x32768.size (by rfl)), View.canon_unit_zero off_zero,
    View.readAt_eq_ld, View.ld_unit_zero off_zero]
  unfold k0_pay1
  exact shapeCast_self _ _

/-- The pipeline's body obligation, in the form that states each staging block on the part inside the array: at
    point `t` the input's block arrives holding block `t` filled out with some `d₀` (`before_in`) and the output's
    holding anything (`before_out`); both leave holding block `t` filled out with `d₀`, which inside the array is
    `blkFull`'s part there (`cut_blkFull`; the two windows have one index map and are cut alike). The invariant and
    the owed tallies pass through unread. -/
theorem body_obligation [Preorder Lvl] (P : sProp 𝕄) (O : CellTallies nD τ sig Ix) (B : Set (SemLoc sig × Ix)) (ι : Ix) (c : Dev nD) :
    BodyObligationLoose (dat Name U Lvl V P O B c) (defs₀ (F := F)) Variants.none ι Set.univ := fun t => by
  rw [bigSep_W0, bigSep_W0]
  simp only
  rw [show (dat Name U Lvl V P O B c).Φ t.succ = (dat Name U Lvl V P O B c).Φ t.castSucc from rfl,
    show (dat Name U Lvl V P O B c).owesAt ι t.succ = (dat Name U Lvl V P O B c).owesAt ι t.castSucc from rfl,
    after_in V P O B c t, after_out V P O B c t]
  iintro ⟨HΦ, Ho, ⟨%d0, H0⟩, ⟨%d1, H1⟩⟩
  rw [before_in V P O B c t d0, before_out V P O B c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (blk V c t)) _)
  isplitl [H0]; · iexact H0
  isplitl [H1]; · iexists d1; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (blkFull V c t)))
    rw [cut_blkFull]; try iexact H0
  · iexists d0
    change _ ⊢ owns (c : Thread nD τ) (stage0_1 (cfg0.slots t 1)) fullShare
      (win0_0.fill (grid0.coords t) d0 (win0_0.cut (grid0.coords t) (blkFull V c t)))
    rw [cut_blkFull]; try iexact H1

/-! ## At the class invariant

The region invariant of a body that names nothing but its staging blocks: the core's scoped buffers that are no
staging block and its generator register, each at some contents (the library states it at the unit index type and at
natural-number names and levels). -/

/-- The proof data at that invariant, the recorded waits unbounded. -/
abbrev dat0 (O : CellTallies nD τ sig Unit) (c : Dev nD) : Dat τ (Elt F) Unit ℕ U ℕ cfg0 c :=
  dat ℕ U ℕ V (Pipeline.ΦA spec0 c) O Set.univ c

/-- Its body obligation. -/
theorem body_obligation0 (O : CellTallies nD τ sig Unit) (ι : Unit) (c : Dev nD) :
    BodyObligationLoose (dat0 (U := U) V O c) (defs₀ (F := F)) Variants.none ι Set.univ :=
  body_obligation V (Pipeline.ΦA spec0 c) O Set.univ ι c

end Cert.Kernel.TailCopy

end
-- ==== Proof.TailCopyWordValue.lean ====
/-
  What the TensorCore region leaves in its arrays: the output array ends holding exactly what the input array held
  when the region was entered, and the input array is unchanged.

  The output array is overwritten, in point order, through each point's block cut at the array's end, by the part
  inside the array of what the body left in the staging block — block `t` of the input array. The 31 blocks cut at
  the array's end are columns 32768·t ‥ 32768·t + 32767 for t < 30 and columns 983040 ‥ 999999 for t = 30: together
  every column of the array. So every element of the output array is written with the input array's element there.
-/
import proofs.«210832_g59760174956807_cont_9to1_m_134_14_alg».proof.Proof.TailCopyWord

noncomputable section

namespace Cert.Kernel.TailCopy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type}

local notation "𝕄" => MT nD τ sig Ix (Elt F) Name U Lvl

-- the core's buffer contents when the region is entered
variable (V : (c : Dev nD) → (b : Ref sig .tc) → Buf (Elt F) ((c : Thread nD τ).loc b))

/-! ## The input array -/

/-- The input array is never written: after the write-backs below any point it holds what it held at entry. -/
theorem arrAt_in (P : sProp 𝕄) (O : CellTallies nD τ sig Ix) (B : Set (SemLoc sig × Ix)) (c : Dev nD) (n : Nat) :
    (dat Name U Lvl V P O B c).arrAt 0 n = V c main_v0 :=
  ((dat Name U Lvl V P O B c).arrAt_in 0 rfl n).trans (A_eq V P O B c 0)

/-! ## The output array -/

/-- Where the output's block at point `t`, cut at the array's end, sits in the array: all 64 rows; columns from
    32768·t, 32768 of them below point 30 and 16960 at point 30 (1000000 = 30·32768 + 16960). -/
theorem geom : ∀ t : Fin grid0.N,
    (win0_1.index t 0 * win0_1.size 0 = 0 ∧ win0_1.xsize (grid0.coords t) 0 = 64)
    ∧ (win0_1.index t 1 * win0_1.size 1 = t.val * 32768
        ∧ win0_1.xsize (grid0.coords t) 1 = if t.val < 30 then 32768 else 16960) := by
  decide +kernel

/-- What the write-back at point `t` writes is block `t` of the input array, read through the output's block there
    (the two windows have one index map and are cut alike; the two arrays have one shape). -/
theorem flushed_out (P : sProp 𝕄) (O : CellTallies nD τ sig Ix) (B : Set (SemLoc sig × Ix)) (c : Dev nD) (t : Fin cfg0.N) :
    (dat Name U Lvl V P O B c).flushed 1 t = ((cfg0.win 1).blk t).view.read (Elt F) (V c main_v0) := by
  show (cfg0.win 1).cut (grid0.coords t) ((dat Name U Lvl V P O B c).after 1 t) = _
  rw [after_out]
  exact cut_blkFull V c t

/-- Every element of the output array lies in the block, cut at the array's end, of the point its column divided
    by 32768 names (a point below 31, the columns being below 1000000), and that point writes its block back. -/
theorem cover_out (c : Dev nD) (i : (((cfg0.win 1).arr.view.loc (c : Thread nD τ))).2.ty.Idx) :
    ∃ t : Fin cfg0.N, (cfg0.win 1).flush t = true ∧ i ∈ ((cfg0.win 1).blk t).view.set := by
  have h0 : (i 0 : Nat) < 64 := (i 0).isLt
  have h1 : (i 1 : Nat) < 1000000 := (i 1).isLt
  have hq : (i 1 : Nat) / 32768 < grid0.N := by rw [N_0]; omega
  refine ⟨⟨(i 1 : Nat) / 32768, hq⟩, flush0_1 _, ?_⟩
  show i ∈ ((View.whole main_v1).slice (win0_1.rect ⟨(i 1 : Nat) / 32768, hq⟩)).set
  rw [View.set_slice_whole, Rect.mem_set_unit]
  obtain ⟨⟨e0, x0⟩, e1, x1⟩ := geom ⟨(i 1 : Nat) / 32768, hq⟩
  intro a
  match a with
  | ⟨0, _⟩ =>
    show win0_1.index _ 0 * win0_1.size 0 ≤ (i 0 : Nat) ∧ (i 0 : Nat) < win0_1.index _ 0 * win0_1.size 0 + win0_1.xsize _ 0
    rw [e0, x0]; omega
  | ⟨1, _⟩ =>
    show win0_1.index _ 1 * win0_1.size 1 ≤ (i 1 : Nat) ∧ (i 1 : Nat) < win0_1.index _ 1 * win0_1.size 1 + win0_1.xsize _ 1
    rw [e1, x1]
    show (i 1 : Nat) / 32768 * 32768 ≤ (i 1 : Nat)
      ∧ (i 1 : Nat) < (i 1 : Nat) / 32768 * 32768 + (if (i 1 : Nat) / 32768 < 30 then 32768 else 16960)
    split <;> omega

/-- After the last write-back the output array holds what the input array held at entry: every point writes back
    its block of that one array, and the blocks cover the output array. -/
theorem arrAt_out (P : sProp 𝕄) (O : CellTallies nD τ sig Ix) (B : Set (SemLoc sig × Ix)) (c : Dev nD) :
    (dat Name U Lvl V P O B c).arrAt 1 cfg0.N = V c main_v0 :=
  (dat Name U Lvl V P O B c).arrAt_eq_of_cover 1 (V c main_v0) (fun t _ => flushed_out V P O B c t) (cover_out c)

/-! ## The core's buffers when the region is left -/

/-- The output array at what the input array held at entry, every other buffer at what it held. -/
def Vexit (c : Dev nD) : (b : Ref sig .tc) → Buf (Elt F) ((c : Thread nD τ).loc b) :=
  Function.update (V c) main_v1 (V c main_v0)

theorem Vexit_out (c : Dev nD) : Vexit V c main_v1 = V c main_v0 := Function.update_self _ _ _
theorem Vexit_of_ne (c : Dev nD) (b : Ref sig .tc) (h : b ≠ main_v1) : Vexit V c b = V c b :=
  Function.update_of_ne h _ _

/-- Each of the pipeline's arrays ends at those contents, -/
theorem hF (P : sProp 𝕄) (O : CellTallies nD τ sig Ix) (B : Set (SemLoc sig × Ix)) (c : Dev nD) (w : Fin cfg0.W) :
    (dat Name U Lvl V P O B c).arrAt w cfg0.N = Vexit V c (Pipeline.arrRef spec0 w) :=
  match w with
  | ⟨0, _⟩ => (arrAt_in V P O B c cfg0.N).trans (Vexit_of_ne V c main_v0 (by decide)).symm
  | ⟨1, _⟩ => (arrAt_out V P O B c).trans (Vexit_out V c).symm

/-- and a buffer that is no array of the pipeline's is as it was. -/
theorem hrest (c : Dev nD) (b : Ref sig .tc) (hb : b ∉ Finset.univ.image (Pipeline.arrRef spec0)) :
    Vexit V c b = V c b :=
  Vexit_of_ne V c b fun e => hb (Finset.mem_image.mpr ⟨1, Finset.mem_univ _, e.symm⟩)

end Cert.Kernel.TailCopy

end
-- ==== Proof.PushRegionW.lean ====
/-
  The block copy on the TensorCore, as one step of @main.

  Before the tiles run, a TensorCore kernel copies the transposed bank, block of 32768 columns by block, into a second
  array (the last block overhangs the array's end and is cut there). Its proof data, the body's obligation and what it
  leaves — the second array at the first one's contents, the first unchanged — are the block copy's own modules; here
  the region is fitted into @main's thread of resources: it is entered from the TensorCore's seven arrays at the
  contents of that moment, the generator register, and what the TensorCore owes the SparseCore launch (start signals
  of the call to come, all at the call's index: a wait of the copy pipeline's, at no call's index, sits below them),
  and left with the arrays at the exit contents and the same debts, the recorded waits still at the lowest level.
-/
import proofs.«210832_g59760174956807_cont_9to1_m_134_14_alg».proof.Proof.PushHostW
import proofs.«210832_g59760174956807_cont_9to1_m_134_14_alg».proof.Proof.TailCopyWordValue
import Idealize.ShloMosaic.Lib.Pipeline.RegionsLoop

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

open Cert.Kernel.TailCopy (Vexit)
open Idealize.ShloMosaic.TcCoe

variable [FloatOps F]
variable (m : (ℓ : Loc nD τ sig) → Buf (Elt F) ℓ)

/-- No pipeline of this program has a prefetched table. -/
abbrev adm : (p : Fin 1) → (pcfgs (F := F) p).Adm := fun p => (cfgs p).toPCfg_adm

/-- The transposed bank, as the first host operation leaves it. -/
abbrev bankT (d : Dev nD) : Buf (Elt F) (t0Loc d) :=
  transpose S64x1000000 [1, 0] (m (a0Loc d)) transposes_S1000000x64_S64x1000000_1_0
/-- The transposed values, as the third host operation leaves them. -/
abbrev valsT (d : Dev nD) : Buf (Elt F) (vLoc d) :=
  transpose S64x16384 [1, 0] (m (a1Loc d)) transposes_S16384x64_S64x16384_1_0

/-- The TensorCore's arrays when the block copy is entered: the launch memory, the transposed bank in place. -/
def Vin (c : Dev nD) : (b : Ref sig .tc) → Buf (Elt F) ((c : Thread nD τ).loc b) :=
  Function.update (fun b => m ((c : Thread nD τ).loc b)) main_v0 (bankT m c)

omit [FloatOps F] in
theorem Vin_v0 (c : Dev nD) : Vin m c main_v0 = bankT m c := Function.update_self _ _ _
omit [FloatOps F] in
theorem Vin_of_ne (c : Dev nD) (b : Ref sig .tc) (h : b ≠ main_v0) : Vin m c b = m ((c : Thread nD τ).loc b) := Function.update_of_ne h _ _

/-- What the copy's body never touches: the scoped buffers that are no staging buffer, and the generator register. -/
def ΦR (c : Dev nD) : sProp 𝕄 := iprop(Pipeline.scopedRest spec0 c ∗ ∃ r, prngReg c r)
/-- The recorded waits allowed on the TensorCore before the call: those at the lowest level. -/
def Bset (c : Dev nD) : Set (SemLoc sig × HIx 1) := {p | (K (F := F)).lev (SparseCore.T c, p.1) p.2 ≤ 0}

omit [FloatOps F] in
/-- What the TensorCore owes the launch is all at a call's index. -/
theorem Otc_none (c : Dev nD) (n : ℕ) (g : GSem nD τ sig) : (K (F := F)).Otc c n g none = 0 := by
  by_contra h
  have := (K (F := F)).lev_of_Otc_pos (Nat.pos_of_ne_zero h)
  rw [SparseCore.Cfg.lev_none] at this; omega

def pdats : (p : Fin 1) → (c : Dev nD) → Pipeline.Dat τ (Elt F) (HIx 1) ℕ UU ℕ (Pipeline.pin (pcfgs (F := F)) adm p) c
  | ⟨0, _⟩ => fun c => TailCopy.dat ℕ UU ℕ (Vin m) (ΦR c) ((K (F := F)).Otc c 0) (Bset (F := F) c) c

/-- The TensorCore's `owes` as its handshake state keeps it before the call. -/
abbrev owesT (c : Dev nD) : sProp 𝕄 :=
  iprop(∃ W, ⌜(K (F := F)).WBelow (SparseCore.T c) W (8 * 0)⌝ ∗ owes (SparseCore.T c) ((K (F := F)).Otc c 0) W)

set_option backward.isDefEq.respectTransparency.types false in
def reg : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := TailCopy.body_obligation (Vin m) (ΦR c) ((K (F := F)).Otc c 0) (Bset (F := F) c) none c
  hwaits c := Pipeline.cellsWaits_intro (Pipeline.pin (pcfgs (F := F)) adm) (pdats m) none 0 c
    fun w s t => (K (F := F)).mayWait_none (thr := SparseCore.T c) _ (Otc_none c 0)
  pre c := iprop(unscopedBufs c (Vin m c) ∗ (∃ r, prngReg c r) ∗ owesT c)
  post c := iprop(unscopedBufs c (Vexit (Vin m) c) ∗ (∃ r, prngReg c r) ∗ owesT c)
  X c := iprop(∃ r, prngReg c r)
  Y c := iprop(∃ r, prngReg c r)
  Z c := Pipeline.unscopedRest spec0 c (Vin m c)
  hentry c := by
    rw [Pipeline.ownSems0_none]
    have hsplit := Pipeline.arrays_of_unscopedBufs (p := 0) (pcfgs (F := F)) adm (pdats m) launch0.win launch0.arr_whole c
      (TailCopy.share_full (Vin m) (ΦR c) ((K (F := F)).Otc c 0) (Bset (F := F) c) c) (Vin m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats m 0 c).Φ 0 = ΦR c from rfl]; unfold ΦR
    iintro ⟨Hp, -, Hr⟩
    isplitl [Hr]; · iexact Hr
    iexact Hp
  hout c := by
    rw [Pipeline.ownSems0_none, show (pdats m 0 c).Φ (Fin.last _) = ΦR c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) (TailCopy.share_full (Vin m) (ΦR c) ((K (F := F)).Otc c 0) (Bset (F := F) c) c)
      (Vin m c) (Vexit (Vin m) c) ((pdats m 0 c).arrAt · cfg0.N) (TailCopy.hF (Vin m) (ΦR c) ((K (F := F)).Otc c 0) (Bset (F := F) c) c) (TailCopy.hrest (Vin m) c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ 8 * 0; rw [SparseCore.Cfg.lev_none]
    iexact HO

end Cert.Kernel.Push

end
-- ==== Proof.PushRegionStepW.lean ====
/-
  The block copy entered from @main of a program that also launches SparseCore kernels.

  The region rule runs `customCall (entry 0)` under the TensorCore program's own body table; @main of this program is
  written over the table extended with the SparseCore launches, where the same call is the label `inner (entry 0)`.
  A proof under the smaller table lifts to the extended one (every effect but a call has the same clause, a call of a
  label is a call of its image), so the region rule serves here as it stands.
-/
import proofs.«210832_g59760174956807_cont_9to1_m_134_14_alg».proof.Proof.PushRegionW

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

open Cert.Kernel.TailCopy (Vexit)
open Idealize.ShloMosaic.TcCoe

variable [FloatOps F]
variable (m : (ℓ : Loc nD τ sig) → Buf (Elt F) ℓ)

/-- What the launch deals the TensorCore for the copy pipeline's staging cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

set_option maxHeartbeats 2000000 in
set_option backward.isDefEq.respectTransparency.types false in
/-- The region rule at this program's one pipeline, under the TensorCore program's body table. -/
theorem region_wp [∀ e, Nonempty (Elt F e)] (d : Dev nD) (Q : PUnit → sProp 𝕄) :
    iprop((iprop(boundary (d.tc : Thread nD τ) ∗ (reg m).post d) -∗ wp frame (wpE (D (F := F)) 𝒱 (d.tc : Thread nD τ) none) Set.univ (.ret ⟨⟩) Q)
        ∗ boundary (d.tc : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats m) (none : HIx 1) cellOf_inj EP defs₀ 𝒱₀ (K (F := F)).L (K (F := F)).lev
    (reg m) d none (fun u hu => absurd hu (Option.not_mem_none u)) (fun _ => .ret ⟨⟩) Q

set_option maxHeartbeats 2000000 in
/-- The same step in @main's spelling: entered from the TensorCore's arrays, the generator register and its debts to
    the launch, left with the arrays at the exit contents. -/
theorem region_step [∀ e, Nonempty (Elt F e)] (d : Dev nD) (Q : PUnit → sProp 𝕄) :
    iprop(levAts (K (F := F)).L (K (F := F)).lev ∗ boundary (SparseCore.T d)
        ∗ (unscopedBufs d (Vin m d) ∗ (∃ r, prngReg d r) ∗ owesT (F := F) d) ∗ G (F := F) d
        ∗ ((boundary (SparseCore.T d) ∗ unscopedBufs d (Vexit (Vin m) d) ∗ (∃ r, prngReg d r) ∗ owesT (F := F) d) -∗ Q ⟨⟩))
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ()) :
        Prog (TpuEff nD τ sig (Elt F) (SparseCore.Sig (ΛP (F := F)) 1) (SparseCore.T d).2) PUnit)
      = SparseCore.liftProg (.op (.customCall (Pipeline.entry 0) ()) fun _ => .ret ⟨⟩) := rfl
  rw [e]
  refine BIBase.Entails.trans ?_ ((K (F := F)).wp_liftProg (D (F := F)) 𝒱 (SparseCore.T d) Set.univ none _ Q)
  refine BIBase.Entails.trans ?_ (region_wp m d Q)
  iintro ⟨Hlv, Hb, Hpre, ⟨Hg, Ht⟩, Hk⟩
  isplitl [Hk]
  · iintro ⟨Hb, Hpost⟩
    ihave Hpost' := (Entails.of_eq (show (reg m).post d = iprop(unscopedBufs d (Vexit (Vin m) d) ∗ (∃ r, prngReg d r) ∗ owesT (F := F) d) from rfl)) $$ Hpost
    rw [wp_ret]; imodintro; iapply Hk
    isplitl [Hb]; · iexact Hb
    iexact Hpost'
  isplitl [Hb]; · iexact Hb
  isplitl [Hpre]
  · iapply (Entails.of_eq (show iprop(unscopedBufs d (Vin m d) ∗ (∃ r, prngReg d r) ∗ owesT (F := F) d) = (reg m).pre d from rfl)); iexact Hpre
  isplitl [Hlv]; · iexact Hlv
  isplitl [Hg]; · iexact Hg
  iexact Ht

end Cert.Kernel.Push

end
-- ==== Proof.PushRunW.lean ====
/-
  The kernel program's run.

  @main on the TensorCore: transpose the bank; copy it block by block into a second array; transpose the values; copy
  the second array into the array the tiles address; start the two SparseCores, whose 32 tiles overwrite the first 16384
  columns of its rows with the transposed values' rows, and wait for them; transpose the result back. Every step's
  contents are named, so the run ends with the result array at the push of the two argument arrays (`transpose_pushedT`)
  and the arguments as launched. The SparseCore launch theorem supplies the interleaving of the 35 threads: it asks for
  the tiles' task (the tiles' module), how a SparseCore's slabs split among its tiles, @main's proof, the launch
  element of the ghost state (the handshakes' rounds, the copy pipeline's staging cells, the transfers' counters), and
  how the final memory reads the claim.
-/
import proofs.«210832_g59760174956807_cont_9to1_m_134_14_alg».proof.Proof.PushRegionStepW

noncomputable section

namespace Cert.Kernel.Push

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.Kernel.main_v2_scv : Memref Cert.Kernel.sig Kind.scVector Space.hbm Cert.Kernel.S64x16384 EltTy.f32)
local notation "oW" => (Memref.whole Cert.Kernel.main_v3_scv : Memref Cert.Kernel.sig Kind.scVector Space.hbm Cert.Kernel.S64x1000000 EltTy.f32)
local notation "sB" => (Memref.whole Cert.Kernel.cc1_scratch0 : Memref Cert.Kernel.sig Kind.scVector Space.vmem Cert.Kernel.S2x16384 EltTy.f32)

open Cert.Kernel.TailCopy (Vexit)
open Idealize.ShloMosaic.TcCoe

variable [FloatOps F]
variable (m : (ℓ : Loc nD τ sig) → Buf (Elt F) ℓ) (ρ : Dev nD → PrngReg)

/-- The array the tiles write into starts as the block copy's result: the transposed bank. -/
abbrev bankO (d : Dev nD) : Buf (Elt F) (oLoc d) := bankT m d
/-- The result: the pushed transposed bank, transposed back. -/
abbrev resT (d : Dev nD) : Buf (Elt F) (r4Loc d) :=
  transpose S1000000x64 [1, 0] (Cert.Push.pushedT (bankO m d) (valsT m d)) transposes_S64x1000000_S1000000x64_1_0

abbrev PP : (K (F := F)).Pay (nD := nD) (Val := Elt F) (Name := ℕ) (U := UU) := P (valsT m) (bankO m)

/-! ## The SparseCore call, as one step of @main -/

theorem call_step (κ : GSem nD τ sig → ℕ) (d : Dev nD) (Φ : PUnit → sProp 𝕄) :
    iprop((K (F := F)).ctx EH (PP m) κ ∗ (K (F := F)).tcSt EH d 0 ∗ (vLoc d ↦{fullShare} valsT m d) ∗ (oLoc d ↦{fullShare} bankO m d)
        ∗ (((K (F := F)).tcSt EH d 1 ∗ (vLoc d ↦{fullShare} valsT m d) ∗ (oLoc d ↦{fullShare} Cert.Push.pushedT (bankO m d) (valsT m d))) -∗ Φ ⟨⟩))
      ⊢ wp frame (wpE ((K (F := F)).defs (D (F := F))) 𝒱 (SparseCore.T d) none) Set.univ ((K (F := F)).run d 0) Φ := by
  have hin : (bigSep Finset.univ fun c : Fin ((K (F := F)).nCore 0) => (PP m).st 0 d c)
      = iprop((vLoc d ↦{fullShare} valsT m d) ∗ (oLoc d ↦[front]{fullShare} bankO m d)) := by
    rw [st0_eq]; unfold slabIn; rw [bigSep_sep', ← vals_slabs, ← front_slabs]
  have hout : (bigSep Finset.univ fun c : Fin ((K (F := F)).nCore 0) => (PP m).dn 0 d c)
      = iprop((vLoc d ↦{fullShare} valsT m d) ∗ (oLoc d ↦[front]{fullShare} Cert.Push.pushedT (bankO m d) (valsT m d))) := by
    rw [dn0_eq]; unfold slabOut; rw [bigSep_sep', ← vals_slabs, ← front_slabs]
  have hback : (oLoc d ↦[Finset.univ \ front]{fullShare} bankO m d : sProp 𝕄)
      = (oLoc d ↦[Finset.univ \ front]{fullShare} Cert.Push.pushedT (bankO m d) (valsT m d)) :=
    pointsTo_congr (pushedT_back d (bankO m d) (valsT m d))
  iintro ⟨#Hctx, Hst, Hv, Ho, Hk⟩
  ihave Ho' := (pointsTo_split_subset (Finset.subset_univ front)).1 $$ Ho
  icases Ho' with ⟨Hof, Hob⟩
  iapply ((K (F := F)).wp_run (D (F := F)) 𝒱 (EH := EH) (P := PP m) κ d 0) $$ [Hst Hv Hof Hob Hk]
  isplitr; · iexact Hctx
  isplitl [Hst]; · iexact Hst
  isplitl [Hv Hof]
  · iapply (Entails.of_eq hin.symm)
    isplitl [Hv]; · iexact Hv
    iexact Hof
  iintro ⟨Hst, Hdn⟩
  ihave Hdn' := (Entails.of_eq hout) $$ Hdn
  icases Hdn' with ⟨Hv, Hof⟩
  ihave Hob' := (Entails.of_eq hback) $$ Hob
  iapply Hk
  isplitl [Hst]; · iexact Hst
  isplitl [Hv]; · iexact Hv
  iapply (pointsTo_split_subset (Finset.subset_univ front)).2
  isplitl [Hof]; · iexact Hof
  iexact Hob'

/-! ## The launch element of the ghost state -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
theorem own_EP (x : UP) : (BI.own (((Emb.inl : Emb UP (UP × Counters)).trans embR) x) : sProp 𝕄) = BI.own (EP (F := F) x) := rfl

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hg : (bigSep Finset.univ fun c : Dev nD => bigSep Finset.univ fun p : Fin 1 => (Pipeline.cellsGhost cfgs (EP (F := F)) p c : sProp 𝕄))
      = bigSep Finset.univ fun c : Dev nD => Pipeline.cellsGhost (Pipeline.pin (pcfgs (F := F)) adm) EP 0 c :=
    bigSep_congr fun c _ => bigSep_univ_of_subsingleton (0 : Fin 1)
  have ht : (bigSep Finset.univ fun c : Dev nD => bigSep Finset.univ fun p : Fin 1 => (Pipeline.toksInit cfgs (EP (F := F)) p c : sProp 𝕄))
      = bigSep Finset.univ fun c : Dev nD => Pipeline.toksInit (Pipeline.pin (pcfgs (F := F)) adm) EP 0 c :=
    bigSep_congr fun c _ => bigSep_univ_of_subsingleton (0 : Fin 1)
  unfold u₀
  iintro Hu
  ihave H := (ownU_pair _ _) $$ Hu
  icases H with ⟨HH, HR⟩
  ihave HR' := (own_pair_emb embR _ _) $$ HR
  icases HR' with ⟨HP, -⟩
  ihave HP' := (Entails.of_eq (own_EP (F := F) _)) $$ HP
  imod (Pipeline.fund_ghost cfgs (EP (F := F)) cellOf_inj) $$ HP' with ⟨Hg, Ht⟩
  imodintro
  isplitl [HH]; · iexact HH
  isplitl [Hg Ht]
  · unfold G
    rw [bigSep_sep']
    isplitl [Hg]
    · ihave Hg' := (Entails.of_eq hg) $$ Hg; iexact Hg'
    · ihave Ht' := (Entails.of_eq ht) $$ Ht; iexact Ht'
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves the claim: the arguments as launched, the result at the push. -/
abbrev FIN (d : Dev nD) : sProp 𝕄 :=
  iprop((a0Loc d ↦{fullShare} m (a0Loc d)) ∗ (a1Loc d ↦{fullShare} m (a1Loc d)) ∗ (r4Loc d ↦{fullShare} resT m d))

omit [FloatOps F] in
/-- The TensorCore's handshake state before the call, its `owes` apart. -/
theorem tcSt_zero (d : Dev nD) :
    ∃ R : sProp 𝕄, (K (F := F)).tcSt (EH (F := F)) d 0 = iprop(owesT (F := F) d ∗ R) := ⟨_, rfl⟩

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_zero (F := F) d
  unfold SparseCore.Cfg.tcRes
  rw [unscopedBufs_eq, hR]
  simp only [main, wp_bind, wp_pure]
  iintro ⟨#Hctx, ⟨HO, HR⟩, ⟨Hb, ⟨Ha0, Ha1, Ht0, Ht1, Hv, Ho, Hr4⟩, -, Hp⟩, Hg⟩
  ihave #Hlv := (SparseCore.Cfg.ctx_levAts (K := K (F := F)) κ) $$ Hctx
  -- the bank transposed
  iapply (wp_unary m d main_arg0 main_v0 (by decide) _ _ _ (m (a0Loc d)) (m (t0Loc d)) _ _) $$ [Hb Ha0 Ht0 HO HR Ha1 Ht1 Hv Ho Hr4 Hp Hg]
  isplitl [Hb]; · iexact Hb
  isplitl [Ha0]; · iexact Ha0
  isplitl [Ht0]; · iexact Ht0
  iintro ⟨Hb, Ha0, Ht0⟩
  rw [wp_ret]; imodintro
  -- the block copy
  iapply (region_step m d _) $$ [Hb Ha0 Ht0 HO HR Ha1 Ht1 Hv Ho Hr4 Hp Hg]
  isplitr; · iexact Hlv
  isplitl [Hb]; · iexact Hb
  isplitl [Ha0 Ht0 Ha1 Ht1 Hv Ho Hr4 Hp HO]
  · isplitl [Ha0 Ht0 Ha1 Ht1 Hv Ho Hr4]
    · rw [unscopedBufs_eq, Vin_v0, Vin_of_ne m d main_arg0 (by decide), Vin_of_ne m d main_arg1 (by decide), Vin_of_ne m d main_v1 (by decide),
        Vin_of_ne m d main_v2 (by decide), Vin_of_ne m d main_v3 (by decide), Vin_of_ne m d main_v4 (by decide)]
      isplitl [Ha0]; · iexact Ha0
      isplitl [Ha1]; · iexact Ha1
      isplitl [Ht0]; · iexact Ht0
      isplitl [Ht1]; · iexact Ht1
      isplitl [Hv]; · iexact Hv
      isplitl [Ho]; · iexact Ho
      iexact Hr4
    isplitl [Hp]; · iexists _; iexact Hp
    iexact HO
  isplitl [Hg]; · iexact Hg
  iintro ⟨Hb, Hub, Hp, HO⟩
  ihave Hub' := (Entails.of_eq ((unscopedBufs_eq (F := F) d (Vexit (Vin m) d)).trans (by
    rw [TailCopy.Vexit_out, TailCopy.Vexit_of_ne (Vin m) d main_arg0 (by decide), TailCopy.Vexit_of_ne (Vin m) d main_arg1 (by decide),
      TailCopy.Vexit_of_ne (Vin m) d main_v0 (by decide), TailCopy.Vexit_of_ne (Vin m) d main_v2 (by decide),
      TailCopy.Vexit_of_ne (Vin m) d main_v3 (by decide), TailCopy.Vexit_of_ne (Vin m) d main_v4 (by decide),
      Vin_v0, Vin_of_ne m d main_arg0 (by decide), Vin_of_ne m d main_arg1 (by decide),
      Vin_of_ne m d main_v2 (by decide), Vin_of_ne m d main_v3 (by decide), Vin_of_ne m d main_v4 (by decide)]))) $$ Hub
  icases Hub' with ⟨Ha0, Ha1, Ht0, Ht1, Hv, Ho, Hr4⟩
  -- the values transposed
  iapply (wp_unary m d main_arg1 main_v2 (by decide) _ _ _ (m (a1Loc d)) (m (vLoc d)) _ _) $$ [Hb Ha0 Ht0 HO HR Ha1 Ht1 Hv Ho Hr4 Hp]
  isplitl [Hb]; · iexact Hb
  isplitl [Ha1]; · iexact Ha1
  isplitl [Hv]; · iexact Hv
  iintro ⟨Hb, Ha1, Hv⟩
  rw [wp_ret]; imodintro
  -- the copy's result into the array the tiles address
  iapply (wp_unary m d main_v1 main_v3 (by decide) id _ _ (bankT m d) (m (oLoc d)) _ _) $$ [Hb Ha0 Ht0 HO HR Ha1 Ht1 Hv Ho Hr4 Hp]
  isplitl [Hb]; · iexact Hb
  isplitl [Ht1]; · iexact Ht1
  isplitl [Ho]; · iexact Ho
  iintro ⟨Hb, Ht1, Ho⟩
  rw [wp_ret]; imodintro
  -- the SparseCores
  iapply (call_step m κ d _) $$ [Hb Ha0 Ht0 HO HR Ha1 Ht1 Hv Ho Hr4 Hp]
  isplitr; · iexact Hctx
  isplitl [HO HR]
  · iapply (Entails.of_eq hR.symm); isplitl [HO]; · iexact HO
    iexact HR
  isplitl [Hv]; · iexact Hv
  isplitl [Ho]; · iexact Ho
  iintro ⟨Hst, Hv, Ho⟩
  -- the result transposed back
  iapply (wp_unary m d main_v3 main_v4 (by decide) _ _ _ (Cert.Push.pushedT (bankO m d) (valsT m d)) (m (r4Loc d)) _ _) $$ [Hb Ha0 Ht0 Hst Ha1 Ht1 Hv Ho Hr4 Hp]
  isplitl [Hb]; · iexact Hb
  isplitl [Ho]; · iexact Ho
  isplitl [Hr4]; · iexact Hr4
  iintro ⟨Hb, Ho, Hr4⟩
  rw [wp_ret]; imodintro; imodintro
  isplitl [Hst]; · iexact Hst
  isplitl [Ha0]; · iexact Ha0
  isplitl [Ha1]; · iexact Ha1
  iexact Hr4

/-! ## The final memory, and the run -/

def fq (d : Dev nD) (s' : Phys nD τ sig (Elt F)) : Prop :=
  s'.mem.mem (a0Loc d) = m (a0Loc d) ∧ s'.mem.mem (a1Loc d) = m (a1Loc d) ∧ s'.mem.mem (r4Loc d) = resT m d

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := r4Loc d) (I := Finset.univ) (q := fullShare) (f := resT m d)) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-- The program's post: on every device the result array holds the push of the two argument arrays, which are unchanged. -/
def QC : PUnit × MemSt nD τ sig (Elt F) → Prop := fun r => ∀ c : Dev nD,
  r.2.mem ((c.tc : Thread nD τ).loc main_v4) = Cert.Push.pushed (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

omit [FloatOps F] in
theorem resT_eq (d : Dev nD) : resT m d = Cert.Push.pushed (m (a0Loc d)) (m (a1Loc d)) :=
  Cert.Push.transpose_pushedT (m (a0Loc d)) (m (a1Loc d)) transposes_S1000000x64_S64x1000000_1_0 transposes_S16384x64_S64x16384_1_0
    transposes_S64x1000000_S1000000x64_1_0

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (valsT m) (bankO m) facts)
    (fun q _ => match q with | 0 => SparseCore.Cfg.VecSplit.of_plain (vecSplit (valsT m) (bankO m)))
    m ρ main (G (F := F)) (FIN m) (u₀ (F := F)) (sep_elim_left.trans (hu₀ m)) (hmain m ρ) (fq m) (hfin m) (QC m)
    (fun s' h c => ⟨(h c).2.2.trans (resT_eq m c), (h c).1, (h c).2.1⟩)

end Cert.Kernel.Push

end
-- ==== Proof.PushSlabsI.lean ====
/-
  The push kernel's tiles, one at a time.

  The SparseCore kernel runs on 2 × 16 vector subcores. Tile `(c, s)` owns rows `4 s + 2 c` and `4 s + 2 c + 1` of the
  transposed arrays: it copies those two rows of the transposed values (64 × 16384) into its scratch, waits, and copies
  the scratch onto the first 16384 columns of the same two rows of the transposed bank (64 × 1000000), and waits.
  Nothing else touches those entries meanwhile, and each copy is waited for before the next starts, so after the task
  the two half-rows hold the pushed bank's entries (`dst_value`: an index equation — the written entries sit at the same
  row and column of the transposed values). This module states that task once, at a symbolic tile, for any float
  instance: from the two slabs (the values' at their contents, the bank's at its contents) and the subcore's own
  storage, to the two slabs with the bank's at the pushed contents.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210832_g59760174956807_cont_9to1_m_134_14_alg».proof.Proof.Gen.KernelIdeal
import proofs.«210832_g59760174956807_cont_9to1_m_134_14_alg».proof.Proof.Gen.KernelIdeal.Skeleton
import proofs.«210832_g59760174956807_cont_9to1_m_134_14_alg».proof.Proof.Gen.KernelIdeal.Launch
import proofs.«210832_g59760174956807_cont_9to1_m_134_14_alg».proof.Proof.SpecT

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays and one tile's slabs -/

abbrev vLoc (d : Dev nD) : Loc nD τ sig := (SparseCore.T d).loc main_v2
abbrev oLoc (d : Dev nD) : Loc nD τ sig := (SparseCore.T d).loc main_v3

local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

abbrev cV (L : grid1.Coords) : Fin τ.nSC := (L 0).castLE hcore1
abbrev jV (L : grid1.Coords) : Fin τ.nSub := (L 1).castLE hsub1

/-- The two rows of the transposed values a tile reads, and the two half-rows of the transposed bank it writes. -/
abbrev srcR (L : grid1.Coords) : Rect S64x16384 := Rect.unit (s := S64x16384) (k1_off1 L) S2x16384.size (k1_off1_inb L)
abbrev dstR (L : grid1.Coords) : Rect S64x1000000 := Rect.unit (s := S64x1000000) (k1_off2 L) S2x16384.size (k1_off2_inb L)
abbrev srcM (L : grid1.Coords) : Memref sig .scVector .hbm S2x16384 .f32 := (vW).slice (srcR L) (fun _ => rfl)
abbrev dstM (L : grid1.Coords) : Memref sig .scVector .hbm S2x16384 .f32 := (oW).slice (dstR L) (fun _ => rfl)
abbrev srcSet (L : grid1.Coords) : Finset S64x16384.Idx := (srcM L).view.set
abbrev dstSet (L : grid1.Coords) : Finset S64x1000000.Idx := (dstM L).view.set

abbrev c1cell (d : Dev nD) (c : Fin τ.nSC) (i : Fin τ.nSub) : GSem nD τ sig := (V d c i, .dma cc1_scratch1.sem)
abbrev c2cell (d : Dev nD) (c : Fin τ.nSC) (i : Fin τ.nSub) : GSem nD τ sig := (V d c i, .dma cc1_scoped0.sem)

variable [FloatOps F]

section Tile
variable (d : Dev nD) (L : grid1.Coords)

omit [FloatOps F] in
theorem ownSems0_V :
    (ownSems0 (V d (cV L) (jV L)) : sProp 𝕄)
      = iprop(semVal (c1cell d (cV L) (jV L)) 0 ∗ semVal (c2cell d (cV L) (jV L)) 0
          ∗ bigSep (((ownCells (V d (cV L) (jV L))).erase (c1cell d (cV L) (jV L))).erase (c2cell d (cV L) (jV L))) fun g => semVal g 0) := by
  unfold SparseCore.Cfg.ownSems0
  rw [SparseCore.bigSep_erase' ((mem_ownCells (g := c1cell d (cV L) (jV L))).mpr ⟨rfl, by
      show (SemLoc.dma cc1_scratch1.sem : SemLoc sig).isScoped .scVector = true; decide⟩),
    SparseCore.bigSep_erase' (Finset.mem_erase.mpr ⟨by simp [c1cell, c2cell]; decide, (mem_ownCells (g := c2cell d (cV L) (jV L))).mpr ⟨rfl, by
      show (SemLoc.dma cc1_scoped0.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L))
    (b := (Proc.scVector (cV L) (jV L)).devRef cc1_scratch0) rfl)]

omit [FloatOps F] in
theorem pts_src (f : Buf (Elt F) (vLoc d)) :
    (((srcM L).view.loc (V d (cV L) (jV L)) ↦[(srcM L).view.set]{fullShare} f : sProp 𝕄)) = (vLoc d ↦[srcSet L]{fullShare} f) := rfl
omit [FloatOps F] in
theorem pts_dst (f : Buf (Elt F) (oLoc d)) :
    (((dstM L).view.loc (V d (cV L) (jV L)) ↦[(dstM L).view.set]{fullShare} f : sProp 𝕄)) = (oLoc d ↦[dstSet L]{fullShare} f) := rfl
omit [FloatOps F] in
theorem pts_sB (f : Buf (Elt F) ((V d (cV L) (jV L)).loc cc1_scratch0)) :
    (((sB).view.loc (V d (cV L) (jV L)) ↦{fullShare} f : sProp 𝕄)) = ((V d (cV L) (jV L)).loc cc1_scratch0 ↦{fullShare} f) := rfl

omit [FloatOps F] in
/-- A tile's two half-rows of the transposed bank, once written with the two rows of the transposed values it read,
    hold the pushed bank's entries there: the written entries lie in columns below 16384, at the same row and column
    of the transposed values. -/
theorem dst_value (vT : Buf (Elt F) (vLoc d)) (bT : Buf (Elt F) (oLoc d)) (X : S2x16384.Idx → Elt F .f32)
    (hX : ∀ y, X y = vT ((srcM L).view.emb y)) :
    ∀ i ∈ dstSet L, (dstM L).view.writes (Elt F) bT [⟨Rect.whole S2x16384, X⟩] i = Cert.Push.pushedT bT vT i := by
  intro i hi
  obtain ⟨y, rfl⟩ := View.exists_emb_of_mem_set (dstM L).view hi
  have h1 : (dstM L).view.read (Elt F) ((dstM L).view.writes (Elt F) bT [⟨Rect.whole S2x16384, X⟩]) ((Rect.whole S2x16384).emb y) = X y :=
    View.read_writes_cons_emb (dstM L).view bT (Rect.whole S2x16384) X [] y
  rw [Rect.emb_whole_apply] at h1
  have h2 : (dstM L).view.writes (Elt F) bT [⟨Rect.whole S2x16384, X⟩] ((dstM L).view.emb y) = X y :=
    ((View.read_apply _ _).trans (cast_eq _ _)).symm.trans h1
  rw [h2, hX]
  have e0d : (((dstM L).view.emb y) 0).val = (k1_off2 L) 0 + 1 * (y 0).val := rfl
  have e1d : (((dstM L).view.emb y) 1).val = (k1_off2 L) 1 + 1 * (y 1).val := rfl
  have e0s : (((srcM L).view.emb y) 0).val = (k1_off1 L) 0 + 1 * (y 0).val := rfl
  have e1s : (((srcM L).view.emb y) 1).val = (k1_off1 L) 1 + 1 * (y 1).val := rfl
  rw [k1_off2_eq] at e0d e1d
  rw [k1_off1_eq] at e0s e1s
  have hy1 : (y 1).val < 16384 := (y 1).isLt
  have hc : (((dstM L).view.emb y) 1).val < 16384 := by rw [e1d]; simp; exact hy1
  rw [Cert.Push.pushedT_lt _ _ _ hc]
  refine congrArg vT ?_
  funext a
  match a with
  | ⟨0, _⟩ => apply Fin.ext; show (((srcM L).view.emb y) 0).val = (((dstM L).view.emb y) 0).val; rw [e0s, e0d]
  | ⟨1, _⟩ => apply Fin.ext; show (((srcM L).view.emb y) 1).val = (((dstM L).view.emb y) 1).val; rw [e1s, e1d]

/-- The task of tile `L` on device `d`: the two rows of the transposed values into the scratch, the scratch onto the
    bank's two half-rows, each copy waited for; the bank's slab ends at the pushed contents. -/
theorem tile_body (hF : (K (F := F)).Facts) (vT : Buf (Elt F) (vLoc d)) (bT : Buf (Elt F) (oLoc d))
    (O : CellTallies nD τ sig (HIx 1)) (W : Waits sig (HIx 1)) (hO : ∀ g, O g none = 0) :
    (iprop(levAts (K (F := F)).L (K (F := F)).lev ∗ emp
        ∗ ((vLoc d ↦[srcSet L]{fullShare} vT) ∗ (oLoc d ↦[dstSet L]{fullShare} bT))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__push L oW (Memref.isWhole_whole _) vW (Memref.isWhole_whole _) oW (Memref.isWhole_whole _) sB (Memref.isWhole_whole _) cc1_scratch1 cc1_scoped0)
          fun _ => iprop(((vLoc d ↦[srcSet L]{fullShare} vT) ∗ (oLoc d ↦[dstSet L]{fullShare} Cert.Push.pushedT bT vT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__push_eq_skeleton]; unfold cc1__push_skel
  rw [(K (F := F)).scopedBufs_V hF d (cV L) (jV L), SparseCore.Cfg.scopedSems0_V (Val := Elt F) d (cV L) (jV L), ownSems0_V, ownBufs_V]
  iintro ⟨#Hlv, -, ⟨Hsrc, Hdst⟩, ⟨⟨%fs, Hs⟩, Hbufs⟩, ⟨Hsem1, Hsem2, Hsems⟩, HO⟩
  ihave Hmw := ((K (F := F)).mayWaits_none (thr := V d (cV L) (jV L)) hO) $$ Hlv
  ihave Hsrc' := (Entails.of_eq (pts_src (F := F) d L _).symm) $$ Hsrc
  ihave Hdst' := (Entails.of_eq (pts_dst (F := F) d L _).symm) $$ Hdst
  ihave Hs' := (Entails.of_eq (pts_sB (F := F) d L _).symm) $$ Hs
  sl_exec
  have hX : ∀ y, tile_body.sl.dma0_1 d L vT fs y = vT ((srcM L).view.emb y) := by
    intro y
    unfold tile_body.sl.dma0_1 tile_body.sl.dma0
    rw [ReadAs.apply_same, ReadAs.apply_same]
    simp only [Memref.view_whole, View.write_whole_univ, View.read_whole]
    exact (View.read_apply _ _).trans (cast_eq _ _)
  rw [wp_ret]; imodintro
  ihave Hsrc := (Entails.of_eq (pts_src (F := F) d L _)) $$ Hsrc'
  ihave Hdst := (Entails.of_eq ((pts_dst (F := F) d L _).trans (pointsTo_congr (dst_value d L vT bT _ hX)))) $$ Hdst'
  ihave Hs := (Entails.of_eq (pts_sB (F := F) d L _)) $$ Hs'
  isplitl [Hsrc Hdst]
  · isplitl [Hsrc]; · iexact Hsrc
    iexact Hdst
  isplitl [Hs Hbufs]
  · isplitl [Hs]; · iexists _; iexact Hs
    iexact Hbufs
  isplitl [Hsem1 Hsem2 Hsems]
  · isplitl [Hsem1]; · iexact Hsem1
    isplitl [Hsem2]; · iexact Hsem2
    iexact Hsems
  iexists _; isplitr
  swap; · iexact HO
  ipureintro; intro p hp
  rcases Finset.mem_insert.mp hp with rfl | hp
  · exact .inr rfl
  rcases Finset.mem_insert.mp hp with rfl | hp
  · exact .inr rfl
  · exact .inl hp

end Tile

end Cert.KernelIdeal.Push

end
-- ==== Proof.PushSplitI.lean ====
/-
  Which entries each tile owns, and what the launch's handshakes carry.

  Tile `(c, s)` owns rows `4 s + 2 c` and `4 s + 2 c + 1`: of the transposed values all 16384 columns, of the transposed
  bank the columns below 16384. The 32 row pairs are pairwise disjoint and cover the 64 rows (`r` belongs to the tile
  with `s = r / 4`, `c = (r mod 4) / 2`), so the transposed values split exactly into the tiles' slabs and the
  transposed bank into the tiles' slabs and the part at columns from 16384 on, which no tile touches and where the
  pushed bank is the old one. The TensorCore hands each SparseCore its sixteen tiles' slabs with the start signal and
  gets them back with the bank's slabs at the pushed contents; the sequencer deals them to the tiles one each.
-/
import proofs.«210832_g59760174956807_cont_9to1_m_134_14_alg».proof.Proof.PushSlabsI

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

/-! ## A tile's coordinates, and membership in its slabs -/

def coordsV (c : Fin (grid1.bound 0)) (s : Fin (grid1.bound 1)) : grid1.Coords :=
  fun | 0 => c | 1 => s | ⟨_ + 2, h⟩ => absurd h (Nat.not_lt.2 (Nat.le_add_left _ _))

theorem srcSet_eq (L : grid1.Coords) : srcSet L = (srcR L).set := by
  show ((View.whole (main_v2_scv : Ref sig .scVector)).slice (srcR L)).set = _
  rw [View.set_slice]; exact Finset.map_refl
theorem dstSet_eq (L : grid1.Coords) : dstSet L = (dstR L).set := by
  show ((View.whole (main_v3_scv : Ref sig .scVector)).slice (dstR L)).set = _
  rw [View.set_slice]; exact Finset.map_refl

theorem mem_srcR (L : grid1.Coords) (i : S64x16384.Idx) :
    i ∈ (srcR L).set ↔ ∀ a, (k1_off1 L) a ≤ i a ∧ (i a : Nat) < (k1_off1 L) a + S2x16384.size a := Rect.mem_set_unit
theorem mem_dstR (L : grid1.Coords) (i : S64x1000000.Idx) :
    i ∈ (dstR L).set ↔ ∀ a, (k1_off2 L) a ≤ i a ∧ (i a : Nat) < (k1_off2 L) a + S2x16384.size a := Rect.mem_set_unit

/-- An entry of the transposed values is tile `L`'s exactly when its row is one of the tile's two. -/
theorem mem_srcSet (L : grid1.Coords) (i : S64x16384.Idx) :
    i ∈ srcSet L ↔ 4 * (L 1).val + 2 * (L 0).val ≤ (i 0).val ∧ (i 0).val < 4 * (L 1).val + 2 * (L 0).val + 2 := by
  rw [srcSet_eq, mem_srcR, k1_off1_eq]
  have h1 : (i 1).val < 16384 := (i 1).isLt
  constructor
  · intro h; have h0 := h 0; simpa using h0
  · intro h a
    match a with
    | ⟨0, _⟩ => simpa using h
    | ⟨1, _⟩ => simpa using h1

/-- An entry of the transposed bank is tile `L`'s exactly when its row is one of the tile's two and its column is below 16384. -/
theorem mem_dstSet (L : grid1.Coords) (i : S64x1000000.Idx) :
    i ∈ dstSet L ↔ (4 * (L 1).val + 2 * (L 0).val ≤ (i 0).val ∧ (i 0).val < 4 * (L 1).val + 2 * (L 0).val + 2) ∧ (i 1).val < 16384 := by
  rw [dstSet_eq, mem_dstR, k1_off2_eq]
  constructor
  · intro h; have h0 := h 0; have h1 := h 1; exact ⟨by simpa using h0, by simpa using h1⟩
  · intro h a
    match a with
    | ⟨0, _⟩ => simpa using h.1
    | ⟨1, _⟩ => simpa using h.2

/-! ## The 32 tiles' slabs: disjoint, and what they cover -/

abbrev Tiles : Type := Fin 2 × Fin 16
abbrev tileL (t : Tiles) : grid1.Coords := coordsV t.1 t.2
abbrev srcOf (t : Tiles) : Finset S64x16384.Idx := srcSet (tileL t)
abbrev dstOf (t : Tiles) : Finset S64x1000000.Idx := dstSet (tileL t)

theorem tile_eq_of_rows {t t' : Tiles} {r : Nat}
    (h : 4 * t.2.val + 2 * t.1.val ≤ r ∧ r < 4 * t.2.val + 2 * t.1.val + 2)
    (h' : 4 * t'.2.val + 2 * t'.1.val ≤ r ∧ r < 4 * t'.2.val + 2 * t'.1.val + 2) : t = t' := by
  have a1 := t.1.isLt; have a2 := t'.1.isLt
  exact Prod.ext (Fin.ext (by omega)) (Fin.ext (by omega))

theorem src_disjoint : ∀ t ∈ (Finset.univ : Finset Tiles), ∀ t' ∈ (Finset.univ : Finset Tiles), t ≠ t' → Disjoint (srcOf t) (srcOf t') :=
  fun t _ t' _ hne => Finset.disjoint_left.mpr fun i h1 h2 =>
    hne (tile_eq_of_rows ((mem_srcSet (tileL t) i).mp h1) ((mem_srcSet (tileL t') i).mp h2))
theorem dst_disjoint : ∀ t ∈ (Finset.univ : Finset Tiles), ∀ t' ∈ (Finset.univ : Finset Tiles), t ≠ t' → Disjoint (dstOf t) (dstOf t') :=
  fun t _ t' _ hne => Finset.disjoint_left.mpr fun i h1 h2 =>
    hne (tile_eq_of_rows ((mem_dstSet (tileL t) i).mp h1).1 ((mem_dstSet (tileL t') i).mp h2).1)

/-- The tile that owns row `r`. -/
def tileOfRow (r : Fin 64) : Tiles := (⟨(r.val % 4) / 2, by omega⟩, ⟨r.val / 4, by omega⟩)
theorem tileOfRow_rows (r : Fin 64) :
    4 * (tileOfRow r).2.val + 2 * (tileOfRow r).1.val ≤ r.val ∧ r.val < 4 * (tileOfRow r).2.val + 2 * (tileOfRow r).1.val + 2 := by
  show 4 * (r.val / 4) + 2 * ((r.val % 4) / 2) ≤ r.val ∧ r.val < 4 * (r.val / 4) + 2 * ((r.val % 4) / 2) + 2
  omega

theorem src_cover : (Finset.univ : Finset Tiles).biUnion srcOf = Finset.univ := by
  ext i
  simp only [Finset.mem_biUnion, Finset.mem_univ, true_and, iff_true]
  exact ⟨tileOfRow (i 0), (mem_srcSet _ i).mpr (tileOfRow_rows (i 0))⟩

/-- The part of the transposed bank the tiles write: the columns below 16384. -/
abbrev front : Finset S64x1000000.Idx := (Finset.univ : Finset Tiles).biUnion dstOf
theorem mem_front (i : S64x1000000.Idx) : i ∈ front ↔ (i 1).val < 16384 := by
  simp only [Finset.mem_biUnion, Finset.mem_univ, true_and]
  constructor
  · rintro ⟨t, ht⟩; exact ((mem_dstSet _ i).mp ht).2
  · intro h; exact ⟨tileOfRow (i 0), (mem_dstSet _ i).mpr ⟨tileOfRow_rows (i 0), h⟩⟩

/-! ## What the handshakes carry -/

variable (vT : (d : Dev nD) → Buf (Elt F) (vLoc d)) (bT : (d : Dev nD) → Buf (Elt F) (oLoc d))

/-- Tile `t`'s two slabs as handed over: the values' rows and the bank's half-rows at the contents of the call; -/
abbrev slabIn (d : Dev nD) (t : Tiles) : sProp 𝕄 :=
  iprop((vLoc d ↦[srcOf t]{fullShare} vT d) ∗ (oLoc d ↦[dstOf t]{fullShare} bT d))
/-- and as handed back: the bank's half-rows at the pushed contents. -/
abbrev slabOut (d : Dev nD) (t : Tiles) : sProp 𝕄 :=
  iprop((vLoc d ↦[srcOf t]{fullShare} vT d) ∗ (oLoc d ↦[dstOf t]{fullShare} Cert.Push.pushedT (bT d) (vT d)))

/-- The one call hands SparseCore `c` its sixteen tiles' slabs, each tile its own, and brings them back with the bank's
    at the pushed contents. -/
def P : (K (F := F)).Pay (nD := nD) (Val := Elt F) (Name := ℕ) (U := UU) where
  st := fun q d c => match q with | 0 => bigSep Finset.univ fun i : Fin 16 => slabIn vT bT d (Fin.cast nCore_zero c, i)
  dn := fun q d c => match q with | 0 => bigSep Finset.univ fun i : Fin 16 => slabOut vT bT d (Fin.cast nCore_zero c, i)
  go := fun q d c i => match q with | 0 => slabIn vT bT d (Fin.cast nCore_zero c, Fin.cast nSub_zero i)
  td := fun q d c i => match q with | 0 => slabOut vT bT d (Fin.cast nCore_zero c, Fin.cast nSub_zero i)
  x := fun _ _ => iprop(emp)

instance P_storable : (P (F := F) vT bT).IsStorable where
  st q d c := match q with
    | 0 => (inferInstance : BI.Storable (upEmb : UEmb _ 𝕄) (bigSep Finset.univ fun i : Fin 16 => slabIn vT bT d (Fin.cast nCore_zero c, i)))
  dn q d c := match q with
    | 0 => (inferInstance : BI.Storable (upEmb : UEmb _ 𝕄) (bigSep Finset.univ fun i : Fin 16 => slabOut vT bT d (Fin.cast nCore_zero c, i)))
  go q d c i := match q with
    | 0 => (inferInstance : BI.Storable (upEmb : UEmb _ 𝕄) (slabIn vT bT d (Fin.cast nCore_zero c, Fin.cast nSub_zero i)))
  td q d c i := match q with
    | 0 => (inferInstance : BI.Storable (upEmb : UEmb _ 𝕄) (slabOut vT bT d (Fin.cast nCore_zero c, Fin.cast nSub_zero i)))

/-! ## The launch theorem's obligations for the one vector-subcore call -/

variable [FloatOps F]

theorem defs₀_vector (c : Fin τ.nSC) (s : Fin τ.nSub) :
    defs₀ (F := F) (.scVector c s) 1 ()
      = SparseCore.onTile hcore1 hsub1 (fun c s => cc1__push (coordsV c s) oW (Memref.isWhole_whole _) vW (Memref.isWhole_whole _) oW (Memref.isWhole_whole _)
          sB (Memref.isWhole_whole _) cc1_scratch1 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P vT bT) v₀ 0 := by
  intro d c i O W hO _ _
  simp only [show (P vT bT).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF (vT d) (bT d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P vT bT) 0 := by
  intro d c
  show (bigSep Finset.univ fun i : Fin 16 => slabIn vT bT d (Fin.cast nCore_zero c, i)) ⊢ |={Set.univ}=> iprop(
      (bigSep Finset.univ fun i : Fin ((K (F := F)).nSub 0) => slabIn vT bT d (Fin.cast nCore_zero c, Fin.cast nSub_zero i))
      ∗ ((bigSep Finset.univ fun i : Fin ((K (F := F)).nSub 0) => slabOut vT bT d (Fin.cast nCore_zero c, Fin.cast nSub_zero i))
          -∗ bigSep Finset.univ fun i : Fin 16 => slabOut vT bT d (Fin.cast nCore_zero c, i)))
  rw [bigSep_tasks (F := F) (fun i => slabIn vT bT d (Fin.cast nCore_zero c, i)),
    bigSep_tasks (F := F) (fun i => slabOut vT bT d (Fin.cast nCore_zero c, i))]
  iintro H; imodintro
  isplitl [H]; · iexact H
  iintro H; iexact H

/-! ## The TensorCore's side: the whole arrays dealt into the tiles' slabs and put back together -/

omit [FloatOps F] in
theorem st0_eq (d : Dev nD) :
    (bigSep Finset.univ fun c : Fin ((K (F := F)).nCore 0) => (P vT bT).st 0 d c) = bigSep (Finset.univ : Finset Tiles) (slabIn vT bT d) := by
  show (bigSep Finset.univ fun c : Fin ((K (F := F)).nCore 0) => bigSep Finset.univ fun i : Fin 16 => slabIn vT bT d (Fin.cast nCore_zero c, i)) = _
  rw [bigSep_cores (F := F) (fun c => bigSep Finset.univ fun i : Fin 16 => slabIn vT bT d (c, i)), ← Finset.univ_product_univ, SparseCore.bigSep_product]
omit [FloatOps F] in
theorem dn0_eq (d : Dev nD) :
    (bigSep Finset.univ fun c : Fin ((K (F := F)).nCore 0) => (P vT bT).dn 0 d c) = bigSep (Finset.univ : Finset Tiles) (slabOut vT bT d) := by
  show (bigSep Finset.univ fun c : Fin ((K (F := F)).nCore 0) => bigSep Finset.univ fun i : Fin 16 => slabOut vT bT d (Fin.cast nCore_zero c, i)) = _
  rw [bigSep_cores (F := F) (fun c => bigSep Finset.univ fun i : Fin 16 => slabOut vT bT d (c, i)), ← Finset.univ_product_univ, SparseCore.bigSep_product]

omit [FloatOps F] in
/-- The transposed values whole are the 32 tiles' row pairs. -/
theorem vals_slabs (d : Dev nD) (f : Buf (Elt F) (vLoc d)) :
    (vLoc d ↦{fullShare} f : sProp 𝕄) = bigSep (Finset.univ : Finset Tiles) fun t => vLoc d ↦[srcOf t]{fullShare} f := by
  rw [← pointsTo_biUnion Finset.univ (ℓ := vLoc d) srcOf src_disjoint, src_cover]; try rfl
omit [FloatOps F] in
/-- The transposed bank's columns below 16384 are the 32 tiles' half-row pairs. -/
theorem front_slabs (d : Dev nD) (f : Buf (Elt F) (oLoc d)) :
    (oLoc d ↦[front]{fullShare} f : sProp 𝕄) = bigSep (Finset.univ : Finset Tiles) fun t => oLoc d ↦[dstOf t]{fullShare} f :=
  pointsTo_biUnion Finset.univ (ℓ := oLoc d) dstOf dst_disjoint

omit [FloatOps F] in
/-- Away from the columns below 16384 the pushed bank is the old one. -/
theorem pushedT_back (d : Dev nD) (b : Buf (Elt F) (oLoc d)) (v : Buf (Elt F) (vLoc d)) :
    ∀ i ∈ (Finset.univ \ front : Finset S64x1000000.Idx), b i = Cert.Push.pushedT b v i := by
  intro i hi
  have hn : ¬ (i 1).val < 16384 := fun h => (Finset.mem_sdiff.mp hi).2 ((mem_front i).mpr h)
  exact (Cert.Push.pushedT_ge b v i hn).symm

end Cert.KernelIdeal.Push

end
-- ==== Proof.PushHostI.lean ====
/-
  The TensorCore's seven arrays, and one host operation over two of them.

  @main of the kernel program holds seven arrays in HBM: the bank and the values as given, their transposes, the
  transposed bank as the block copy leaves it, the array the tiles write into, and the result. Between the program's
  steps the TensorCore holds each of them whole, at contents this proof names; a host operation `y := f x` needs only
  `x` and `y` and leaves `x` as it was and `y` at `f` of `x`'s contents.
-/
import proofs.«210832_g59760174956807_cont_9to1_m_134_14_alg».proof.Proof.PushSplitI

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

variable [FloatOps F]

/-! ## The seven arrays as the TensorCore names them -/

abbrev a0Loc (d : Dev nD) : Loc nD τ sig := (SparseCore.T d).loc main_arg0
abbrev a1Loc (d : Dev nD) : Loc nD τ sig := (SparseCore.T d).loc main_arg1
abbrev t0Loc (d : Dev nD) : Loc nD τ sig := (SparseCore.T d).loc main_v0
abbrev t1Loc (d : Dev nD) : Loc nD τ sig := (SparseCore.T d).loc main_v1
abbrev r4Loc (d : Dev nD) : Loc nD τ sig := (SparseCore.T d).loc main_v4

omit [FloatOps F] in
/-- The TensorCore's unscoped buffers are the seven arrays, one by one. -/
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (t0Loc d ↦{fullShare} W main_v0)
          ∗ (t1Loc d ↦{fullShare} W main_v1) ∗ (vLoc d ↦{fullShare} W main_v2) ∗ (oLoc d ↦{fullShare} W main_v3) ∗ (r4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## A host operation `y := f x` over two arrays held whole -/

/-- The valuation that reads `fx` at `x` and `fy` at `y` (and the launch memory elsewhere: never read). -/
def val2 (m : (ℓ : Loc nD τ sig) → Buf (Elt F) ℓ) (d : Dev nD) (x y : Ref sig .tc)
    (fx : x.ty.Contents (Elt F)) (fy : y.ty.Contents (Elt F)) : Valuation τ sig (Elt F) :=
  Function.update (Function.update (fun b => m (d, b)) (Proc.devRef .tc x) fx) (Proc.devRef .tc y) fy

theorem wp_unary (m : (ℓ : Loc nD τ sig) → Buf (Elt F) ℓ) (d : Dev nD) (x y : Ref sig .tc)
    (hxy : (Proc.devRef .tc x : DevRef τ sig) ≠ Proc.devRef .tc y)
    (f : x.ty.Contents (Elt F) → y.ty.Contents (Elt F)) (hx hy)
    (fx : x.ty.Contents (Elt F)) (fy : y.ty.Contents (Elt F)) {Λ : Labels} {defs : Defs nD τ sig (Elt F) Λ} {𝒱 : Variants} {bd : Option 𝒱.V} {E : Set ℕ}
    {α : Type} (k : Prog (TpuEff nD τ sig (Elt F) Λ (SparseCore.T d).2) α) (Q : α → sProp 𝕄) :
    iprop(boundary (SparseCore.T d) ∗ (((d, Proc.devRef .tc x) : Loc nD τ sig) ↦{fullShare} fx) ∗ (((d, Proc.devRef .tc y) : Loc nD τ sig) ↦{fullShare} fy)
        ∗ ((boundary (SparseCore.T d) ∗ (((d, Proc.devRef .tc x) : Loc nD τ sig) ↦{fullShare} fx) ∗ (((d, Proc.devRef .tc y) : Loc nD τ sig) ↦{fullShare} f fx))
            -∗ wp frame (wpE defs 𝒱 (SparseCore.T d) bd) E k Q))
      ⊢ wp frame (wpE defs 𝒱 (SparseCore.T d) bd) E (hlo rfl (StableHlo.unary x y f hx hy) (fun _ => k)) Q := by
  have hS : (StableHlo.unary (τ := τ) x y f hx hy).bufs ⊆ ({Proc.devRef .tc x, Proc.devRef .tc y} : Finset (DevRef τ sig)) := by
    rw [StableHlo.unary_bufs]
  have hheld : ∀ W : Valuation τ sig (Elt F),
      (held (SparseCore.T d) ({Proc.devRef .tc x, Proc.devRef .tc y} : Finset (DevRef τ sig)) W : sProp 𝕄)
        = iprop((((d, Proc.devRef .tc x) : Loc nD τ sig) ↦{fullShare} W (Proc.devRef .tc x)) ∗ (((d, Proc.devRef .tc y) : Loc nD τ sig) ↦{fullShare} W (Proc.devRef .tc y))) := by
    intro W; unfold held
    rw [SparseCore.bigSep_insert' (by rw [Finset.mem_singleton]; exact hxy), bigSep_singleton]
  have hVx : val2 m d x y fx fy (Proc.devRef .tc x) = fx := by
    unfold val2; rw [Function.update_of_ne hxy, Function.update_self]
  have hVy : val2 m d x y fx fy (Proc.devRef .tc y) = fy := by
    unfold val2; rw [Function.update_self]
  have hne : x ≠ y := fun e => hxy (congrArg _ e)
  have hres : (held (SparseCore.T d) ({Proc.devRef .tc x, Proc.devRef .tc y} : Finset (DevRef τ sig))
        ((StableHlo.unary (τ := τ) x y f hx hy).result (val2 m d x y fx fy)) : sProp 𝕄)
      = iprop((((d, Proc.devRef .tc x) : Loc nD τ sig) ↦{fullShare} fx) ∗ (((d, Proc.devRef .tc y) : Loc nD τ sig) ↦{fullShare} f fx)) := by
    rw [hheld, StableHlo.unary_result', StableHlo.unary_result_ne' (h := hne), hVx]
  iintro ⟨Hb, Hx, Hy, Hk⟩
  iapply (wp_hlo_within 𝒱 (SparseCore.T d) bd E (op := StableHlo.unary x y f hx hy) (S := {Proc.devRef .tc x, Proc.devRef .tc y}) hS (V := val2 m d x y fx fy)) $$ [Hb Hx Hy]
  · isplitl [Hb]; · iexact Hb
    rw [hheld, hVx, hVy]
    isplitl [Hx]; · iexact Hx
    iexact Hy
  iintro ⟨Hb, Hh⟩
  ihave Hh' := (Entails.of_eq hres) $$ Hh
  icases Hh' with ⟨Hx, Hy⟩
  iapply Hk
  isplitl [Hb]; · iexact Hb
  isplitl [Hx]; · iexact Hx
  iexact Hy

end Cert.KernelIdeal.Push

end
-- ==== Proof.TailCopy.lean ====
/-
  The TensorCore region of the kernel program: a pipelined copy of a 64 × 1000000 array of f32 in 31 column
  blocks of 32768, the last of which overhangs the array's end by 15808 columns.

  At each grid point the body loads the whole input staging block and stores it, unchanged, into the output
  staging block. The fetch of the last block lands only the 16960 columns inside the array; the rest of the
  staging block then holds words nothing names, and the write-back of the last block writes only the 16960
  columns inside the array. Both windows are therefore described on the part of the block inside the array only.

  This module gives, for any contents `V` of the core's buffers when the region is entered, any region invariant
  `P`, any tallies `O` owed throughout and any bound `B` on the recorded waits (the body reads none of them):
    * the proof data `dat`: the arrays at `V`; after the body at point `t` both staging blocks hold block `t`
      of the input array, filled out past the array's end with the zero word;
    * what the body finds (`before_in`, `before_out`): the input's staging block just fetched, the output's at
      anything;
    * the body's triple over any two whole staging memrefs (`sound_kernel`) and the pipeline's body obligation in
      the loose form (`body_obligation`);
    * the same at the class invariant `Pipeline.ΦA spec0 c` (`dat0`, `body_obligation0`).
-/
import proofs.«210832_g59760174956807_cont_9to1_m_134_14_alg».proof.Proof.Gen.KernelIdeal.Launch
import proofs.«210832_g59760174956807_cont_9to1_m_134_14_alg».proof.Proof.Gen.KernelIdeal.Skeleton
import proofs.«210832_g59760174956807_cont_9to1_m_134_14_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.TailCopy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type}

local notation "𝕄" => MT nD τ sig Ix (Elt F) Name U Lvl

-- the core's buffer contents when the region is entered
variable (V : (c : Dev nD) → (b : Ref sig .tc) → Buf (Elt F) ((c : Thread nD τ).loc b))

/-! ## The proof data -/

/-- Block `t` of the input array as the fetch at point `t` reads it: its part inside the array (all 32768 columns
    at points 0‥29, the first 16960 at point 30). -/
def blk (c : Dev nD) (t : Fin cfg0.N) : (win0_0.xblock (grid0.coords t)).Idx → Elt F .f32 :=
  (win0_0.blk t).view.read (Elt F) (V c main_v0)

/-- The same filled out to a whole staging block: past the array's end, where no obligation states anything, the
    zero word. -/
def blkFull (c : Dev nD) (t : Fin cfg0.N) : S64x32768.Idx → Elt F .f32 :=
  win0_0.fill (grid0.coords t) (fun _ => Scalar.ofBits .f32 0#32) (blk V c t)

variable (Name U Lvl) in
/-- The proof data of the pipeline on core `c`: the arrays as the region finds them; after the body at point `t`
    the input's staging block still at block `t` of the input array and the output's at the same block; the
    invariant `P`, the owed tallies `O` and the bound `B` on the recorded waits the same at every point (the body touches
    none of them); full shares. -/
def dat (P : sProp 𝕄) (O : CellTallies nD τ sig Ix) (B : Set (SemLoc sig × Ix)) (c : Dev nD) : Dat τ (Elt F) Ix Name U Lvl cfg0 c where
  A w := V c (Pipeline.arrRef spec0 w)
  after w t := match w with
    | ⟨0, _⟩ => blkFull V c t
    | ⟨1, _⟩ => blkFull V c t
  Φ _ := P
  q _ := fullShare
  owed _ := O
  recorded _ := B

theorem A_eq (P : sProp 𝕄) (O : CellTallies nD τ sig Ix) (B : Set (SemLoc sig × Ix)) (c : Dev nD) (w : Fin cfg0.W) :
    (dat Name U Lvl V P O B c).A w = V c (Pipeline.arrRef spec0 w) := by dsimp only [dat]
theorem after_in (P : sProp 𝕄) (O : CellTallies nD τ sig Ix) (B : Set (SemLoc sig × Ix)) (c : Dev nD) (t : Fin cfg0.N) :
    (dat Name U Lvl V P O B c).after 0 t = blkFull V c t := by dsimp only [dat]
theorem after_out (P : sProp 𝕄) (O : CellTallies nD τ sig Ix) (B : Set (SemLoc sig × Ix)) (c : Dev nD) (t : Fin cfg0.N) :
    (dat Name U Lvl V P O B c).after 1 t = blkFull V c t := by dsimp only [dat]

/-- The invariant, the owed tallies and the bound are the parameters at every point, and every array is held at the
    full share. -/
theorem Φ_eq (P : sProp 𝕄) (O : CellTallies nD τ sig Ix) (B : Set (SemLoc sig × Ix)) (c : Dev nD) (t : Fin (cfg0.N + 1)) :
    (dat Name U Lvl V P O B c).Φ t = P := rfl
theorem owed_eq (P : sProp 𝕄) (O : CellTallies nD τ sig Ix) (B : Set (SemLoc sig × Ix)) (c : Dev nD) (t : Fin (cfg0.N + 1)) :
    (dat Name U Lvl V P O B c).owed t = O := rfl
theorem recorded_eq (P : sProp 𝕄) (O : CellTallies nD τ sig Ix) (B : Set (SemLoc sig × Ix)) (c : Dev nD) (t : Fin (cfg0.N + 1)) :
    (dat Name U Lvl V P O B c).recorded t = B := rfl
theorem share_full (P : sProp 𝕄) (O : CellTallies nD τ sig Ix) (B : Set (SemLoc sig × Ix)) (c : Dev nD) (w : Fin cfg0.W) :
    (dat Name U Lvl V P O B c).share w = fullShare :=
  (dat Name U Lvl V P O B c).share_full (fun _ => rfl) w

/-- Cut back to the part inside the array, the filled-out block is the block. -/
theorem cut_blkFull (c : Dev nD) (t : Fin cfg0.N) : win0_0.cut (grid0.coords t) (blkFull V c t) = blk V c t :=
  win0_0.cut_fill _ _ _

/-! ## What the body finds -/

/-- The input's staging block is fetched at every point: it holds block `t` on the columns inside the array and
    `d`, anything, past the array's end. -/
theorem before_in (P : sProp 𝕄) (O : CellTallies nD τ sig Ix) (B : Set (SemLoc sig × Ix)) (c : Dev nD) (t : Fin cfg0.N) (d) :
    (dat Name U Lvl V P O B c).before 0 t d = win0_0.fill (grid0.coords t) d (blk V c t) := by
  unfold Dat.before; rw [if_pos (fetch0_0 t)]; rfl

/-- The output's staging block is written back at every point: at the first point, and after each write-back, it
    holds anything. -/
theorem before_out (P : sProp 𝕄) (O : CellTallies nD τ sig Ix) (B : Set (SemLoc sig × Ix)) (c : Dev nD) (t : Fin cfg0.N) (d) :
    (dat Name U Lvl V P O B c).before 1 t d = d :=
  (dat Name U Lvl V P O B c).before_out_reset 1 rfl t
    (by by_cases h : t.val = 0
        · exact .inl h
        · exact .inr ⟨h, flush0_1 _⟩) d

/-! ## The body -/

/-- The offsets of the body's three accesses are zero on both axes. -/
theorem off_zero : (![0, 0] : Fin 2 → Nat) = fun _ => 0 := funext fun a => by fin_cases a <;> rfl

/-- The body on whole staging memrefs, the input's reading `X` and the output's reading anything: it runs to the
    continuation with the input's as it was and the output's reading `X` too. Its two loads and its store are
    through the whole block, so the load reads `X`, the shape cast to the same shape is the identity, and the one
    store covers the block and leaves its payload. -/
theorem sound_kernel [Preorder Lvl] (c : Dev nD) (E : Set Name) (i : grid0.Coords)
    (arg1 : Memref sig .tc .vmem S64x32768 .f32) (harg1 : arg1.IsWhole)
    (arg2 : Memref sig .tc .vmem S64x32768 .f32) (harg2 : arg2.IsWhole)
    (X : Vec F S64x32768 .f32) (K : PUnit → sProp 𝕄) :
    iprop(owns (c : Thread nD τ) arg1 fullShare X ∗ (∃ d, owns (c : Thread nD τ) arg2 fullShare d)
        ∗ (iprop(owns (c : Thread nD τ) arg1 fullShare X ∗ owns (c : Thread nD τ) arg2 fullShare X) -∗ K ⟨⟩))
      ⊢ wp frame (wpE (defs₀ (F := F)) Variants.none c none) E (cc0__tail_copy_body i arg1 harg1 arg2 harg2) K := by
  simp only [cc0__tail_copy_body_eq_skeleton]; unfold cc0__tail_copy_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (View.cover_of_tiled _ S64x32768.size (by rfl)), View.canon_unit_zero off_zero,
    View.readAt_eq_ld, View.ld_unit_zero off_zero]
  unfold k0_pay1
  exact shapeCast_self _ _

/-- The pipeline's body obligation, in the form that states each staging block on the part inside the array: at
    point `t` the input's block arrives holding block `t` filled out with some `d₀` (`before_in`) and the output's
    holding anything (`before_out`); both leave holding block `t` filled out with `d₀`, which inside the array is
    `blkFull`'s part there (`cut_blkFull`; the two windows have one index map and are cut alike). The invariant and
    the owed tallies pass through unread. -/
theorem body_obligation [Preorder Lvl] (P : sProp 𝕄) (O : CellTallies nD τ sig Ix) (B : Set (SemLoc sig × Ix)) (ι : Ix) (c : Dev nD) :
    BodyObligationLoose (dat Name U Lvl V P O B c) (defs₀ (F := F)) Variants.none ι Set.univ := fun t => by
  rw [bigSep_W0, bigSep_W0]
  simp only
  rw [show (dat Name U Lvl V P O B c).Φ t.succ = (dat Name U Lvl V P O B c).Φ t.castSucc from rfl,
    show (dat Name U Lvl V P O B c).owesAt ι t.succ = (dat Name U Lvl V P O B c).owesAt ι t.castSucc from rfl,
    after_in V P O B c t, after_out V P O B c t]
  iintro ⟨HΦ, Ho, ⟨%d0, H0⟩, ⟨%d1, H1⟩⟩
  rw [before_in V P O B c t d0, before_out V P O B c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (blk V c t)) _)
  isplitl [H0]; · iexact H0
  isplitl [H1]; · iexists d1; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (blkFull V c t)))
    rw [cut_blkFull]; try iexact H0
  · iexists d0
    change _ ⊢ owns (c : Thread nD τ) (stage0_1 (cfg0.slots t 1)) fullShare
      (win0_0.fill (grid0.coords t) d0 (win0_0.cut (grid0.coords t) (blkFull V c t)))
    rw [cut_blkFull]; try iexact H1

/-! ## At the class invariant

The region invariant of a body that names nothing but its staging blocks: the core's scoped buffers that are no
staging block and its generator register, each at some contents (the library states it at the unit index type and at
natural-number names and levels). -/

/-- The proof data at that invariant, the recorded waits unbounded. -/
abbrev dat0 (O : CellTallies nD τ sig Unit) (c : Dev nD) : Dat τ (Elt F) Unit ℕ U ℕ cfg0 c :=
  dat ℕ U ℕ V (Pipeline.ΦA spec0 c) O Set.univ c

/-- Its body obligation. -/
theorem body_obligation0 (O : CellTallies nD τ sig Unit) (ι : Unit) (c : Dev nD) :
    BodyObligationLoose (dat0 (U := U) V O c) (defs₀ (F := F)) Variants.none ι Set.univ :=
  body_obligation V (Pipeline.ΦA spec0 c) O Set.univ ι c

end Cert.KernelIdeal.TailCopy

end
-- ==== Proof.TailCopyValue.lean ====
/-
  What the TensorCore region leaves in its arrays: the output array ends holding exactly what the input array held
  when the region was entered, and the input array is unchanged.

  The output array is overwritten, in point order, through each point's block cut at the array's end, by the part
  inside the array of what the body left in the staging block — block `t` of the input array. The 31 blocks cut at
  the array's end are columns 32768·t ‥ 32768·t + 32767 for t < 30 and columns 983040 ‥ 999999 for t = 30: together
  every column of the array. So every element of the output array is written with the input array's element there.
-/
import proofs.«210832_g59760174956807_cont_9to1_m_134_14_alg».proof.Proof.TailCopy

noncomputable section

namespace Cert.KernelIdeal.TailCopy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type}

local notation "𝕄" => MT nD τ sig Ix (Elt F) Name U Lvl

-- the core's buffer contents when the region is entered
variable (V : (c : Dev nD) → (b : Ref sig .tc) → Buf (Elt F) ((c : Thread nD τ).loc b))

/-! ## The input array -/

/-- The input array is never written: after the write-backs below any point it holds what it held at entry. -/
theorem arrAt_in (P : sProp 𝕄) (O : CellTallies nD τ sig Ix) (B : Set (SemLoc sig × Ix)) (c : Dev nD) (n : Nat) :
    (dat Name U Lvl V P O B c).arrAt 0 n = V c main_v0 :=
  ((dat Name U Lvl V P O B c).arrAt_in 0 rfl n).trans (A_eq V P O B c 0)

/-! ## The output array -/

/-- Where the output's block at point `t`, cut at the array's end, sits in the array: all 64 rows; columns from
    32768·t, 32768 of them below point 30 and 16960 at point 30 (1000000 = 30·32768 + 16960). -/
theorem geom : ∀ t : Fin grid0.N,
    (win0_1.index t 0 * win0_1.size 0 = 0 ∧ win0_1.xsize (grid0.coords t) 0 = 64)
    ∧ (win0_1.index t 1 * win0_1.size 1 = t.val * 32768
        ∧ win0_1.xsize (grid0.coords t) 1 = if t.val < 30 then 32768 else 16960) := by
  decide +kernel

/-- What the write-back at point `t` writes is block `t` of the input array, read through the output's block there
    (the two windows have one index map and are cut alike; the two arrays have one shape). -/
theorem flushed_out (P : sProp 𝕄) (O : CellTallies nD τ sig Ix) (B : Set (SemLoc sig × Ix)) (c : Dev nD) (t : Fin cfg0.N) :
    (dat Name U Lvl V P O B c).flushed 1 t = ((cfg0.win 1).blk t).view.read (Elt F) (V c main_v0) := by
  show (cfg0.win 1).cut (grid0.coords t) ((dat Name U Lvl V P O B c).after 1 t) = _
  rw [after_out]
  exact cut_blkFull V c t

/-- Every element of the output array lies in the block, cut at the array's end, of the point its column divided
    by 32768 names (a point below 31, the columns being below 1000000), and that point writes its block back. -/
theorem cover_out (c : Dev nD) (i : (((cfg0.win 1).arr.view.loc (c : Thread nD τ))).2.ty.Idx) :
    ∃ t : Fin cfg0.N, (cfg0.win 1).flush t = true ∧ i ∈ ((cfg0.win 1).blk t).view.set := by
  have h0 : (i 0 : Nat) < 64 := (i 0).isLt
  have h1 : (i 1 : Nat) < 1000000 := (i 1).isLt
  have hq : (i 1 : Nat) / 32768 < grid0.N := by rw [N_0]; omega
  refine ⟨⟨(i 1 : Nat) / 32768, hq⟩, flush0_1 _, ?_⟩
  show i ∈ ((View.whole main_v1).slice (win0_1.rect ⟨(i 1 : Nat) / 32768, hq⟩)).set
  rw [View.set_slice_whole, Rect.mem_set_unit]
  obtain ⟨⟨e0, x0⟩, e1, x1⟩ := geom ⟨(i 1 : Nat) / 32768, hq⟩
  intro a
  match a with
  | ⟨0, _⟩ =>
    show win0_1.index _ 0 * win0_1.size 0 ≤ (i 0 : Nat) ∧ (i 0 : Nat) < win0_1.index _ 0 * win0_1.size 0 + win0_1.xsize _ 0
    rw [e0, x0]; omega
  | ⟨1, _⟩ =>
    show win0_1.index _ 1 * win0_1.size 1 ≤ (i 1 : Nat) ∧ (i 1 : Nat) < win0_1.index _ 1 * win0_1.size 1 + win0_1.xsize _ 1
    rw [e1, x1]
    show (i 1 : Nat) / 32768 * 32768 ≤ (i 1 : Nat)
      ∧ (i 1 : Nat) < (i 1 : Nat) / 32768 * 32768 + (if (i 1 : Nat) / 32768 < 30 then 32768 else 16960)
    split <;> omega

/-- After the last write-back the output array holds what the input array held at entry: every point writes back
    its block of that one array, and the blocks cover the output array. -/
theorem arrAt_out (P : sProp 𝕄) (O : CellTallies nD τ sig Ix) (B : Set (SemLoc sig × Ix)) (c : Dev nD) :
    (dat Name U Lvl V P O B c).arrAt 1 cfg0.N = V c main_v0 :=
  (dat Name U Lvl V P O B c).arrAt_eq_of_cover 1 (V c main_v0) (fun t _ => flushed_out V P O B c t) (cover_out c)

/-! ## The core's buffers when the region is left -/

/-- The output array at what the input array held at entry, every other buffer at what it held. -/
def Vexit (c : Dev nD) : (b : Ref sig .tc) → Buf (Elt F) ((c : Thread nD τ).loc b) :=
  Function.update (V c) main_v1 (V c main_v0)

theorem Vexit_out (c : Dev nD) : Vexit V c main_v1 = V c main_v0 := Function.update_self _ _ _
theorem Vexit_of_ne (c : Dev nD) (b : Ref sig .tc) (h : b ≠ main_v1) : Vexit V c b = V c b :=
  Function.update_of_ne h _ _

/-- Each of the pipeline's arrays ends at those contents, -/
theorem hF (P : sProp 𝕄) (O : CellTallies nD τ sig Ix) (B : Set (SemLoc sig × Ix)) (c : Dev nD) (w : Fin cfg0.W) :
    (dat Name U Lvl V P O B c).arrAt w cfg0.N = Vexit V c (Pipeline.arrRef spec0 w) :=
  match w with
  | ⟨0, _⟩ => (arrAt_in V P O B c cfg0.N).trans (Vexit_of_ne V c main_v0 (by decide)).symm
  | ⟨1, _⟩ => (arrAt_out V P O B c).trans (Vexit_out V c).symm

/-- and a buffer that is no array of the pipeline's is as it was. -/
theorem hrest (c : Dev nD) (b : Ref sig .tc) (hb : b ∉ Finset.univ.image (Pipeline.arrRef spec0)) :
    Vexit V c b = V c b :=
  Vexit_of_ne V c b fun e => hb (Finset.mem_image.mpr ⟨1, Finset.mem_univ _, e.symm⟩)

end Cert.KernelIdeal.TailCopy

end
-- ==== Proof.PushRegionI.lean ====
/-
  The block copy on the TensorCore, as one step of @main.

  Before the tiles run, a TensorCore kernel copies the transposed bank, block of 32768 columns by block, into a second
  array (the last block overhangs the array's end and is cut there). Its proof data, the body's obligation and what it
  leaves — the second array at the first one's contents, the first unchanged — are the block copy's own modules; here
  the region is fitted into @main's thread of resources: it is entered from the TensorCore's seven arrays at the
  contents of that moment, the generator register, and what the TensorCore owes the SparseCore launch (start signals
  of the call to come, all at the call's index: a wait of the copy pipeline's, at no call's index, sits below them),
  and left with the arrays at the exit contents and the same debts, the recorded waits still at the lowest level.
-/
import proofs.«210832_g59760174956807_cont_9to1_m_134_14_alg».proof.Proof.PushHostI
import proofs.«210832_g59760174956807_cont_9to1_m_134_14_alg».proof.Proof.TailCopyValue
import Idealize.ShloMosaic.Lib.Pipeline.RegionsLoop

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

open Cert.KernelIdeal.TailCopy (Vexit)
open Idealize.ShloMosaic.TcCoe

variable [FloatOps F]
variable (m : (ℓ : Loc nD τ sig) → Buf (Elt F) ℓ)

/-- No pipeline of this program has a prefetched table. -/
abbrev adm : (p : Fin 1) → (pcfgs (F := F) p).Adm := fun p => (cfgs p).toPCfg_adm

/-- The transposed bank, as the first host operation leaves it. -/
abbrev bankT (d : Dev nD) : Buf (Elt F) (t0Loc d) :=
  transpose S64x1000000 [1, 0] (m (a0Loc d)) transposes_S1000000x64_S64x1000000_1_0
/-- The transposed values, as the third host operation leaves them. -/
abbrev valsT (d : Dev nD) : Buf (Elt F) (vLoc d) :=
  transpose S64x16384 [1, 0] (m (a1Loc d)) transposes_S16384x64_S64x16384_1_0

/-- The TensorCore's arrays when the block copy is entered: the launch memory, the transposed bank in place. -/
def Vin (c : Dev nD) : (b : Ref sig .tc) → Buf (Elt F) ((c : Thread nD τ).loc b) :=
  Function.update (fun b => m ((c : Thread nD τ).loc b)) main_v0 (bankT m c)

omit [FloatOps F] in
theorem Vin_v0 (c : Dev nD) : Vin m c main_v0 = bankT m c := Function.update_self _ _ _
omit [FloatOps F] in
theorem Vin_of_ne (c : Dev nD) (b : Ref sig .tc) (h : b ≠ main_v0) : Vin m c b = m ((c : Thread nD τ).loc b) := Function.update_of_ne h _ _

/-- What the copy's body never touches: the scoped buffers that are no staging buffer, and the generator register. -/
def ΦR (c : Dev nD) : sProp 𝕄 := iprop(Pipeline.scopedRest spec0 c ∗ ∃ r, prngReg c r)
/-- The recorded waits allowed on the TensorCore before the call: those at the lowest level. -/
def Bset (c : Dev nD) : Set (SemLoc sig × HIx 1) := {p | (K (F := F)).lev (SparseCore.T c, p.1) p.2 ≤ 0}

omit [FloatOps F] in
/-- What the TensorCore owes the launch is all at a call's index. -/
theorem Otc_none (c : Dev nD) (n : ℕ) (g : GSem nD τ sig) : (K (F := F)).Otc c n g none = 0 := by
  by_contra h
  have := (K (F := F)).lev_of_Otc_pos (Nat.pos_of_ne_zero h)
  rw [SparseCore.Cfg.lev_none] at this; omega

def pdats : (p : Fin 1) → (c : Dev nD) → Pipeline.Dat τ (Elt F) (HIx 1) ℕ UU ℕ (Pipeline.pin (pcfgs (F := F)) adm p) c
  | ⟨0, _⟩ => fun c => TailCopy.dat ℕ UU ℕ (Vin m) (ΦR c) ((K (F := F)).Otc c 0) (Bset (F := F) c) c

/-- The TensorCore's `owes` as its handshake state keeps it before the call. -/
abbrev owesT (c : Dev nD) : sProp 𝕄 :=
  iprop(∃ W, ⌜(K (F := F)).WBelow (SparseCore.T c) W (8 * 0)⌝ ∗ owes (SparseCore.T c) ((K (F := F)).Otc c 0) W)

set_option backward.isDefEq.respectTransparency.types false in
def reg : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := TailCopy.body_obligation (Vin m) (ΦR c) ((K (F := F)).Otc c 0) (Bset (F := F) c) none c
  hwaits c := Pipeline.cellsWaits_intro (Pipeline.pin (pcfgs (F := F)) adm) (pdats m) none 0 c
    fun w s t => (K (F := F)).mayWait_none (thr := SparseCore.T c) _ (Otc_none c 0)
  pre c := iprop(unscopedBufs c (Vin m c) ∗ (∃ r, prngReg c r) ∗ owesT c)
  post c := iprop(unscopedBufs c (Vexit (Vin m) c) ∗ (∃ r, prngReg c r) ∗ owesT c)
  X c := iprop(∃ r, prngReg c r)
  Y c := iprop(∃ r, prngReg c r)
  Z c := Pipeline.unscopedRest spec0 c (Vin m c)
  hentry c := by
    rw [Pipeline.ownSems0_none]
    have hsplit := Pipeline.arrays_of_unscopedBufs (p := 0) (pcfgs (F := F)) adm (pdats m) launch0.win launch0.arr_whole c
      (TailCopy.share_full (Vin m) (ΦR c) ((K (F := F)).Otc c 0) (Bset (F := F) c) c) (Vin m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats m 0 c).Φ 0 = ΦR c from rfl]; unfold ΦR
    iintro ⟨Hp, -, Hr⟩
    isplitl [Hr]; · iexact Hr
    iexact Hp
  hout c := by
    rw [Pipeline.ownSems0_none, show (pdats m 0 c).Φ (Fin.last _) = ΦR c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) (TailCopy.share_full (Vin m) (ΦR c) ((K (F := F)).Otc c 0) (Bset (F := F) c) c)
      (Vin m c) (Vexit (Vin m) c) ((pdats m 0 c).arrAt · cfg0.N) (TailCopy.hF (Vin m) (ΦR c) ((K (F := F)).Otc c 0) (Bset (F := F) c) c) (TailCopy.hrest (Vin m) c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ 8 * 0; rw [SparseCore.Cfg.lev_none]
    iexact HO

end Cert.KernelIdeal.Push

end
-- ==== Proof.PushRegionStepI.lean ====
/-
  The block copy entered from @main of a program that also launches SparseCore kernels.

  The region rule runs `customCall (entry 0)` under the TensorCore program's own body table; @main of this program is
  written over the table extended with the SparseCore launches, where the same call is the label `inner (entry 0)`.
  A proof under the smaller table lifts to the extended one (every effect but a call has the same clause, a call of a
  label is a call of its image), so the region rule serves here as it stands.
-/
import proofs.«210832_g59760174956807_cont_9to1_m_134_14_alg».proof.Proof.PushRegionI

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

open Cert.KernelIdeal.TailCopy (Vexit)
open Idealize.ShloMosaic.TcCoe

variable [FloatOps F]
variable (m : (ℓ : Loc nD τ sig) → Buf (Elt F) ℓ)

/-- What the launch deals the TensorCore for the copy pipeline's staging cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

set_option maxHeartbeats 2000000 in
set_option backward.isDefEq.respectTransparency.types false in
/-- The region rule at this program's one pipeline, under the TensorCore program's body table. -/
theorem region_wp [∀ e, Nonempty (Elt F e)] (d : Dev nD) (Q : PUnit → sProp 𝕄) :
    iprop((iprop(boundary (d.tc : Thread nD τ) ∗ (reg m).post d) -∗ wp frame (wpE (D (F := F)) 𝒱 (d.tc : Thread nD τ) none) Set.univ (.ret ⟨⟩) Q)
        ∗ boundary (d.tc : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats m) (none : HIx 1) cellOf_inj EP defs₀ 𝒱₀ (K (F := F)).L (K (F := F)).lev
    (reg m) d none (fun u hu => absurd hu (Option.not_mem_none u)) (fun _ => .ret ⟨⟩) Q

set_option maxHeartbeats 2000000 in
/-- The same step in @main's spelling: entered from the TensorCore's arrays, the generator register and its debts to
    the launch, left with the arrays at the exit contents. -/
theorem region_step [∀ e, Nonempty (Elt F e)] (d : Dev nD) (Q : PUnit → sProp 𝕄) :
    iprop(levAts (K (F := F)).L (K (F := F)).lev ∗ boundary (SparseCore.T d)
        ∗ (unscopedBufs d (Vin m d) ∗ (∃ r, prngReg d r) ∗ owesT (F := F) d) ∗ G (F := F) d
        ∗ ((boundary (SparseCore.T d) ∗ unscopedBufs d (Vexit (Vin m) d) ∗ (∃ r, prngReg d r) ∗ owesT (F := F) d) -∗ Q ⟨⟩))
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ()) :
        Prog (TpuEff nD τ sig (Elt F) (SparseCore.Sig (ΛP (F := F)) 1) (SparseCore.T d).2) PUnit)
      = SparseCore.liftProg (.op (.customCall (Pipeline.entry 0) ()) fun _ => .ret ⟨⟩) := rfl
  rw [e]
  refine BIBase.Entails.trans ?_ ((K (F := F)).wp_liftProg (D (F := F)) 𝒱 (SparseCore.T d) Set.univ none _ Q)
  refine BIBase.Entails.trans ?_ (region_wp m d Q)
  iintro ⟨Hlv, Hb, Hpre, ⟨Hg, Ht⟩, Hk⟩
  isplitl [Hk]
  · iintro ⟨Hb, Hpost⟩
    ihave Hpost' := (Entails.of_eq (show (reg m).post d = iprop(unscopedBufs d (Vexit (Vin m) d) ∗ (∃ r, prngReg d r) ∗ owesT (F := F) d) from rfl)) $$ Hpost
    rw [wp_ret]; imodintro; iapply Hk
    isplitl [Hb]; · iexact Hb
    iexact Hpost'
  isplitl [Hb]; · iexact Hb
  isplitl [Hpre]
  · iapply (Entails.of_eq (show iprop(unscopedBufs d (Vin m d) ∗ (∃ r, prngReg d r) ∗ owesT (F := F) d) = (reg m).pre d from rfl)); iexact Hpre
  isplitl [Hlv]; · iexact Hlv
  isplitl [Hg]; · iexact Hg
  iexact Ht

end Cert.KernelIdeal.Push

end
-- ==== Proof.PushRunI.lean ====
/-
  The kernel program's run.

  @main on the TensorCore: transpose the bank; copy it block by block into a second array; transpose the values; copy
  the second array into the array the tiles address; start the two SparseCores, whose 32 tiles overwrite the first 16384
  columns of its rows with the transposed values' rows, and wait for them; transpose the result back. Every step's
  contents are named, so the run ends with the result array at the push of the two argument arrays (`transpose_pushedT`)
  and the arguments as launched. The SparseCore launch theorem supplies the interleaving of the 35 threads: it asks for
  the tiles' task (the tiles' module), how a SparseCore's slabs split among its tiles, @main's proof, the launch
  element of the ghost state (the handshakes' rounds, the copy pipeline's staging cells, the transfers' counters), and
  how the final memory reads the claim.
-/
import proofs.«210832_g59760174956807_cont_9to1_m_134_14_alg».proof.Proof.PushRegionStepI

noncomputable section

namespace Cert.KernelIdeal.Push

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "vW" => (Memref.whole Cert.KernelIdeal.main_v2_scv : Memref Cert.KernelIdeal.sig Kind.scVector Space.hbm Cert.KernelIdeal.S64x16384 EltTy.f32)
local notation "oW" => (Memref.whole Cert.KernelIdeal.main_v3_scv : Memref Cert.KernelIdeal.sig Kind.scVector Space.hbm Cert.KernelIdeal.S64x1000000 EltTy.f32)
local notation "sB" => (Memref.whole Cert.KernelIdeal.cc1_scratch0 : Memref Cert.KernelIdeal.sig Kind.scVector Space.vmem Cert.KernelIdeal.S2x16384 EltTy.f32)

open Cert.KernelIdeal.TailCopy (Vexit)
open Idealize.ShloMosaic.TcCoe

variable [FloatOps F]
variable (m : (ℓ : Loc nD τ sig) → Buf (Elt F) ℓ) (ρ : Dev nD → PrngReg)

/-- The array the tiles write into starts as the block copy's result: the transposed bank. -/
abbrev bankO (d : Dev nD) : Buf (Elt F) (oLoc d) := bankT m d
/-- The result: the pushed transposed bank, transposed back. -/
abbrev resT (d : Dev nD) : Buf (Elt F) (r4Loc d) :=
  transpose S1000000x64 [1, 0] (Cert.Push.pushedT (bankO m d) (valsT m d)) transposes_S64x1000000_S1000000x64_1_0

abbrev PP : (K (F := F)).Pay (nD := nD) (Val := Elt F) (Name := ℕ) (U := UU) := P (valsT m) (bankO m)

/-! ## The SparseCore call, as one step of @main -/

theorem call_step (κ : GSem nD τ sig → ℕ) (d : Dev nD) (Φ : PUnit → sProp 𝕄) :
    iprop((K (F := F)).ctx EH (PP m) κ ∗ (K (F := F)).tcSt EH d 0 ∗ (vLoc d ↦{fullShare} valsT m d) ∗ (oLoc d ↦{fullShare} bankO m d)
        ∗ (((K (F := F)).tcSt EH d 1 ∗ (vLoc d ↦{fullShare} valsT m d) ∗ (oLoc d ↦{fullShare} Cert.Push.pushedT (bankO m d) (valsT m d))) -∗ Φ ⟨⟩))
      ⊢ wp frame (wpE ((K (F := F)).defs (D (F := F))) 𝒱 (SparseCore.T d) none) Set.univ ((K (F := F)).run d 0) Φ := by
  have hin : (bigSep Finset.univ fun c : Fin ((K (F := F)).nCore 0) => (PP m).st 0 d c)
      = iprop((vLoc d ↦{fullShare} valsT m d) ∗ (oLoc d ↦[front]{fullShare} bankO m d)) := by
    rw [st0_eq]; unfold slabIn; rw [bigSep_sep', ← vals_slabs, ← front_slabs]
  have hout : (bigSep Finset.univ fun c : Fin ((K (F := F)).nCore 0) => (PP m).dn 0 d c)
      = iprop((vLoc d ↦{fullShare} valsT m d) ∗ (oLoc d ↦[front]{fullShare} Cert.Push.pushedT (bankO m d) (valsT m d))) := by
    rw [dn0_eq]; unfold slabOut; rw [bigSep_sep', ← vals_slabs, ← front_slabs]
  have hback : (oLoc d ↦[Finset.univ \ front]{fullShare} bankO m d : sProp 𝕄)
      = (oLoc d ↦[Finset.univ \ front]{fullShare} Cert.Push.pushedT (bankO m d) (valsT m d)) :=
    pointsTo_congr (pushedT_back d (bankO m d) (valsT m d))
  iintro ⟨#Hctx, Hst, Hv, Ho, Hk⟩
  ihave Ho' := (pointsTo_split_subset (Finset.subset_univ front)).1 $$ Ho
  icases Ho' with ⟨Hof, Hob⟩
  iapply ((K (F := F)).wp_run (D (F := F)) 𝒱 (EH := EH) (P := PP m) κ d 0) $$ [Hst Hv Hof Hob Hk]
  isplitr; · iexact Hctx
  isplitl [Hst]; · iexact Hst
  isplitl [Hv Hof]
  · iapply (Entails.of_eq hin.symm)
    isplitl [Hv]; · iexact Hv
    iexact Hof
  iintro ⟨Hst, Hdn⟩
  ihave Hdn' := (Entails.of_eq hout) $$ Hdn
  icases Hdn' with ⟨Hv, Hof⟩
  ihave Hob' := (Entails.of_eq hback) $$ Hob
  iapply Hk
  isplitl [Hst]; · iexact Hst
  isplitl [Hv]; · iexact Hv
  iapply (pointsTo_split_subset (Finset.subset_univ front)).2
  isplitl [Hof]; · iexact Hof
  iexact Hob'

/-! ## The launch element of the ghost state -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
theorem own_EP (x : UP) : (BI.own (((Emb.inl : Emb UP (UP × Counters)).trans embR) x) : sProp 𝕄) = BI.own (EP (F := F) x) := rfl

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hg : (bigSep Finset.univ fun c : Dev nD => bigSep Finset.univ fun p : Fin 1 => (Pipeline.cellsGhost cfgs (EP (F := F)) p c : sProp 𝕄))
      = bigSep Finset.univ fun c : Dev nD => Pipeline.cellsGhost (Pipeline.pin (pcfgs (F := F)) adm) EP 0 c :=
    bigSep_congr fun c _ => bigSep_univ_of_subsingleton (0 : Fin 1)
  have ht : (bigSep Finset.univ fun c : Dev nD => bigSep Finset.univ fun p : Fin 1 => (Pipeline.toksInit cfgs (EP (F := F)) p c : sProp 𝕄))
      = bigSep Finset.univ fun c : Dev nD => Pipeline.toksInit (Pipeline.pin (pcfgs (F := F)) adm) EP 0 c :=
    bigSep_congr fun c _ => bigSep_univ_of_subsingleton (0 : Fin 1)
  unfold u₀
  iintro Hu
  ihave H := (ownU_pair _ _) $$ Hu
  icases H with ⟨HH, HR⟩
  ihave HR' := (own_pair_emb embR _ _) $$ HR
  icases HR' with ⟨HP, -⟩
  ihave HP' := (Entails.of_eq (own_EP (F := F) _)) $$ HP
  imod (Pipeline.fund_ghost cfgs (EP (F := F)) cellOf_inj) $$ HP' with ⟨Hg, Ht⟩
  imodintro
  isplitl [HH]; · iexact HH
  isplitl [Hg Ht]
  · unfold G
    rw [bigSep_sep']
    isplitl [Hg]
    · ihave Hg' := (Entails.of_eq hg) $$ Hg; iexact Hg'
    · ihave Ht' := (Entails.of_eq ht) $$ Ht; iexact Ht'
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves the claim: the arguments as launched, the result at the push. -/
abbrev FIN (d : Dev nD) : sProp 𝕄 :=
  iprop((a0Loc d ↦{fullShare} m (a0Loc d)) ∗ (a1Loc d ↦{fullShare} m (a1Loc d)) ∗ (r4Loc d ↦{fullShare} resT m d))

omit [FloatOps F] in
/-- The TensorCore's handshake state before the call, its `owes` apart. -/
theorem tcSt_zero (d : Dev nD) :
    ∃ R : sProp 𝕄, (K (F := F)).tcSt (EH (F := F)) d 0 = iprop(owesT (F := F) d ∗ R) := ⟨_, rfl⟩

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_zero (F := F) d
  unfold SparseCore.Cfg.tcRes
  rw [unscopedBufs_eq, hR]
  simp only [main, wp_bind, wp_pure]
  iintro ⟨#Hctx, ⟨HO, HR⟩, ⟨Hb, ⟨Ha0, Ha1, Ht0, Ht1, Hv, Ho, Hr4⟩, -, Hp⟩, Hg⟩
  ihave #Hlv := (SparseCore.Cfg.ctx_levAts (K := K (F := F)) κ) $$ Hctx
  -- the bank transposed
  iapply (wp_unary m d main_arg0 main_v0 (by decide) _ _ _ (m (a0Loc d)) (m (t0Loc d)) _ _) $$ [Hb Ha0 Ht0 HO HR Ha1 Ht1 Hv Ho Hr4 Hp Hg]
  isplitl [Hb]; · iexact Hb
  isplitl [Ha0]; · iexact Ha0
  isplitl [Ht0]; · iexact Ht0
  iintro ⟨Hb, Ha0, Ht0⟩
  rw [wp_ret]; imodintro
  -- the block copy
  iapply (region_step m d _) $$ [Hb Ha0 Ht0 HO HR Ha1 Ht1 Hv Ho Hr4 Hp Hg]
  isplitr; · iexact Hlv
  isplitl [Hb]; · iexact Hb
  isplitl [Ha0 Ht0 Ha1 Ht1 Hv Ho Hr4 Hp HO]
  · isplitl [Ha0 Ht0 Ha1 Ht1 Hv Ho Hr4]
    · rw [unscopedBufs_eq, Vin_v0, Vin_of_ne m d main_arg0 (by decide), Vin_of_ne m d main_arg1 (by decide), Vin_of_ne m d main_v1 (by decide),
        Vin_of_ne m d main_v2 (by decide), Vin_of_ne m d main_v3 (by decide), Vin_of_ne m d main_v4 (by decide)]
      isplitl [Ha0]; · iexact Ha0
      isplitl [Ha1]; · iexact Ha1
      isplitl [Ht0]; · iexact Ht0
      isplitl [Ht1]; · iexact Ht1
      isplitl [Hv]; · iexact Hv
      isplitl [Ho]; · iexact Ho
      iexact Hr4
    isplitl [Hp]; · iexists _; iexact Hp
    iexact HO
  isplitl [Hg]; · iexact Hg
  iintro ⟨Hb, Hub, Hp, HO⟩
  ihave Hub' := (Entails.of_eq ((unscopedBufs_eq (F := F) d (Vexit (Vin m) d)).trans (by
    rw [TailCopy.Vexit_out, TailCopy.Vexit_of_ne (Vin m) d main_arg0 (by decide), TailCopy.Vexit_of_ne (Vin m) d main_arg1 (by decide),
      TailCopy.Vexit_of_ne (Vin m) d main_v0 (by decide), TailCopy.Vexit_of_ne (Vin m) d main_v2 (by decide),
      TailCopy.Vexit_of_ne (Vin m) d main_v3 (by decide), TailCopy.Vexit_of_ne (Vin m) d main_v4 (by decide),
      Vin_v0, Vin_of_ne m d main_arg0 (by decide), Vin_of_ne m d main_arg1 (by decide),
      Vin_of_ne m d main_v2 (by decide), Vin_of_ne m d main_v3 (by decide), Vin_of_ne m d main_v4 (by decide)]))) $$ Hub
  icases Hub' with ⟨Ha0, Ha1, Ht0, Ht1, Hv, Ho, Hr4⟩
  -- the values transposed
  iapply (wp_unary m d main_arg1 main_v2 (by decide) _ _ _ (m (a1Loc d)) (m (vLoc d)) _ _) $$ [Hb Ha0 Ht0 HO HR Ha1 Ht1 Hv Ho Hr4 Hp]
  isplitl [Hb]; · iexact Hb
  isplitl [Ha1]; · iexact Ha1
  isplitl [Hv]; · iexact Hv
  iintro ⟨Hb, Ha1, Hv⟩
  rw [wp_ret]; imodintro
  -- the copy's result into the array the tiles address
  iapply (wp_unary m d main_v1 main_v3 (by decide) id _ _ (bankT m d) (m (oLoc d)) _ _) $$ [Hb Ha0 Ht0 HO HR Ha1 Ht1 Hv Ho Hr4 Hp]
  isplitl [Hb]; · iexact Hb
  isplitl [Ht1]; · iexact Ht1
  isplitl [Ho]; · iexact Ho
  iintro ⟨Hb, Ht1, Ho⟩
  rw [wp_ret]; imodintro
  -- the SparseCores
  iapply (call_step m κ d _) $$ [Hb Ha0 Ht0 HO HR Ha1 Ht1 Hv Ho Hr4 Hp]
  isplitr; · iexact Hctx
  isplitl [HO HR]
  · iapply (Entails.of_eq hR.symm); isplitl [HO]; · iexact HO
    iexact HR
  isplitl [Hv]; · iexact Hv
  isplitl [Ho]; · iexact Ho
  iintro ⟨Hst, Hv, Ho⟩
  -- the result transposed back
  iapply (wp_unary m d main_v3 main_v4 (by decide) _ _ _ (Cert.Push.pushedT (bankO m d) (valsT m d)) (m (r4Loc d)) _ _) $$ [Hb Ha0 Ht0 Hst Ha1 Ht1 Hv Ho Hr4 Hp]
  isplitl [Hb]; · iexact Hb
  isplitl [Ho]; · iexact Ho
  isplitl [Hr4]; · iexact Hr4
  iintro ⟨Hb, Ho, Hr4⟩
  rw [wp_ret]; imodintro; imodintro
  isplitl [Hst]; · iexact Hst
  isplitl [Ha0]; · iexact Ha0
  isplitl [Ha1]; · iexact Ha1
  iexact Hr4

/-! ## The final memory, and the run -/

def fq (d : Dev nD) (s' : Phys nD τ sig (Elt F)) : Prop :=
  s'.mem.mem (a0Loc d) = m (a0Loc d) ∧ s'.mem.mem (a1Loc d) = m (a1Loc d) ∧ s'.mem.mem (r4Loc d) = resT m d

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := r4Loc d) (I := Finset.univ) (q := fullShare) (f := resT m d)) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-- The program's post: on every device the result array holds the push of the two argument arrays, which are unchanged. -/
def QC : PUnit × MemSt nD τ sig (Elt F) → Prop := fun r => ∀ c : Dev nD,
  r.2.mem ((c.tc : Thread nD τ).loc main_v4) = Cert.Push.pushed (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

omit [FloatOps F] in
theorem resT_eq (d : Dev nD) : resT m d = Cert.Push.pushed (m (a0Loc d)) (m (a1Loc d)) :=
  Cert.Push.transpose_pushedT (m (a0Loc d)) (m (a1Loc d)) transposes_S1000000x64_S64x1000000_1_0 transposes_S16384x64_S64x16384_1_0
    transposes_S64x1000000_S1000000x64_1_0

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (valsT m) (bankO m) facts)
    (fun q _ => match q with | 0 => SparseCore.Cfg.VecSplit.of_plain (vecSplit (valsT m) (bankO m)))
    m ρ main (G (F := F)) (FIN m) (u₀ (F := F)) (sep_elim_left.trans (hu₀ m)) (hmain m ρ) (fq m) (hfin m) (QC m)
    (fun s' h c => ⟨(h c).2.2.trans (resT_eq m c), (h c).1, (h c).2.1⟩)

end Cert.KernelIdeal.Push

end
-- ==== Proof.RefOps.lean ====
/-
  The reference program's @main as ONE straight line of host operations, and its run.

  @main makes one call, of the function computing a remainder, which itself makes one call, of a select; a call
  executes the callee's body on the caller's buffers, so with both bodies written out at their call sites @main is
  a line of thirty-five operations: five before the call, twenty-one of the remainder (the select's one among
  them), nine after.  Every weakly fair execution of that line terminates, and each buffer then holds what the
  line's operations, applied in order to the launch contents, leave in it.
-/
import proofs.«210832_g59760174956807_cont_9to1_m_134_14_alg».proof.Proof.Gen.ReferenceIdeal
import Idealize.ShloMosaic.Lib.StableHlo.Run

noncomputable section

namespace Cert.ReferenceIdeal.PushRun

open Cert.ReferenceIdeal Cert.ReferenceIdeal.Gen Idealize.ShloMosaic Idealize.ShloMosaic.TcCoe Idealize.SL.Sem Idealize.ShloMosaic.StableHlo

variable {F : FTy → Type} [FloatOps F]

/-- The five operations before the call: the count 0 … 16383, the offset 0 added to it, the modulus 1000000. -/
abbrev opsHead : List (HloOp τ sig (Elt F)) :=
  [ nullary main_v0 (iotaInDim S16384 32 0),
    nullary main_c (constantI S_ 32 0#32),
    unary main_c main_v1 (broadcastInDim S16384 ![] bcast_S_S16384 : (⟨S_, .i32⟩ : BufTy).Contents (Elt F) → (⟨S16384, .i32⟩ : BufTy).Contents (Elt F)),
    binary main_v1 main_v0 main_v2 (addi : (⟨S16384, .i32⟩ : BufTy).Contents (Elt F) → (⟨S16384, .i32⟩ : BufTy).Contents (Elt F) → (⟨S16384, .i32⟩ : BufTy).Contents (Elt F)),
    nullary main_c_0 (constantI S_ 32 1000000#32) ]

/-- The remainder function's twenty-one operations on the call's buffers (the fifth is the select it calls): the
    divisor, replaced by 1 were it 0; the truncated remainder; and the correction that adds the divisor back where
    the remainder is not zero and its sign differs from the divisor's. -/
abbrev opsCall : List (HloOp τ sig (Elt F)) :=
  [ TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16384 ![] bcast_S_S16384),
    TRef.binary (.of main_v2) main_call0.v3 main_call0.v4 Host.remsi,
    TRef.nullary main_call0.c_1 (constantI S_ 32 0#32),
    TRef.unary main_call0.c_1 main_call0.v5 (broadcastInDim S16384 ![] bcast_S_S16384),
    TRef.binary main_call0.v4 main_call0.v5 main_call0.v6 (cmpi .ne),
    TRef.nullary main_call0.c_2 (constantI S_ 32 0#32),
    TRef.unary main_call0.c_2 main_call0.v7 (broadcastInDim S16384 ![] bcast_S_S16384),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16384 ![] bcast_S_S16384),
    TRef.binary main_call0.v8 main_call0.v10 main_call0.v11 (cmpi .ne),
    TRef.binary main_call0.v11 main_call0.v6 main_call0.v12 andi,
    TRef.unary main_call0.call0.v0 main_call0.v13 (broadcastInDim S16384 ![] bcast_S_S16384),
    TRef.binary main_call0.v4 main_call0.v13 main_call0.v14 addi,
    TRef.ternary main_call0.v12 main_call0.v14 main_call0.v4 main_call0.v15 select ]

/-- The nine operations after the call: a negative index would have the bank's length added (none is), the
    indices become a column, and the scatter writes the values' rows at them. -/
abbrev opsTail : List (HloOp τ sig (Elt F)) :=
  [ nullary main_c_1 (constantI S_ 32 0#32),
    unary main_c_1 main_v4 (broadcastInDim S16384 ![] bcast_S_S16384 : (⟨S_, .i32⟩ : BufTy).Contents (Elt F) → (⟨S16384, .i32⟩ : BufTy).Contents (Elt F)),
    binary main_v3 main_v4 main_v5 (cmpi .slt : (⟨S16384, .i32⟩ : BufTy).Contents (Elt F) → (⟨S16384, .i32⟩ : BufTy).Contents (Elt F) → (⟨S16384, .i1⟩ : BufTy).Contents (Elt F)),
    nullary main_c_2 (constantI S_ 32 1000000#32),
    unary main_c_2 main_v6 (broadcastInDim S16384 ![] bcast_S_S16384 : (⟨S_, .i32⟩ : BufTy).Contents (Elt F) → (⟨S16384, .i32⟩ : BufTy).Contents (Elt F)),
    binary main_v3 main_v6 main_v7 (addi : (⟨S16384, .i32⟩ : BufTy).Contents (Elt F) → (⟨S16384, .i32⟩ : BufTy).Contents (Elt F) → (⟨S16384, .i32⟩ : BufTy).Contents (Elt F)),
    ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v8 main_v9 (broadcastInDim S16384x1 ![0] bcast_S16384_S16384x1_0 : (⟨S16384, .i32⟩ : BufTy).Contents (Elt F) → (⟨S16384x1, .i32⟩ : BufTy).Contents (Elt F)),
    ternary main_arg0 main_v9 main_arg1 main_v10 ((fun x i u => Host.scatter scatter_S1000000x64_S16384x1_S16384x64_1_0_0_1 (fun _ b => b) x i u) : (⟨S1000000x64, .f32⟩ : BufTy).Contents (Elt F) → (⟨S16384x1, .i32⟩ : BufTy).Contents (Elt F) → (⟨S16384x64, .f32⟩ : BufTy).Contents (Elt F) → (⟨S1000000x64, .f32⟩ : BufTy).Contents (Elt F)) ]

/-- @main's thirty-five operations, in order. -/
abbrev ops : List (HloOp τ sig (Elt F)) := opsHead ++ (opsCall ++ opsTail)

set_option maxRecDepth 1024 in
/-- @main is that line: the two functions' bodies written out at their calls, the sequencing re-associated. -/
theorem main_eq (c : Dev nD) : main (F := F) c = seq ops := by
  simp only [main, fn_remainder.body, fn_where.body, seq, bind_assoc, pure_bind, ops, opsHead, opsCall, opsTail,
    List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..,
    nullary_bufs_sub .., unary_bufs_sub .., binary_bufs_sub .., nullary_bufs_sub .., unary_bufs_sub ..,
    binary_bufs_sub .., ternary_bufs_sub .., unary_bufs_sub .., ternary_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.PushRun

end
-- ==== Proof.RefWords.lean ====
/-
  Four facts about 32-bit words below 16384, the words the index array holds.

  Such a word is not negative when read signed; its signed reading is the number itself; its truncated remainder by
  1000000 is itself, and so is its sum with zero.
-/
import Idealize.ShloMosaic.PureOps.Ideal

namespace Cert.ReferenceIdeal.PushRun

open Idealize.ShloMosaic

/-- The word of a number below 16384 reads back as that number. -/
theorem toNat_word (e : Nat) (he : e < 16384) : (BitVec.ofNat 32 e).toNat = e := by
  rw [BitVec.toNat_ofNat]; exact Nat.mod_eq_of_lt (by omega)

/-- Its sign bit is clear. -/
theorem msb_word (e : Nat) (he : e < 16384) : (BitVec.ofNat 32 e).msb = false := by
  rw [BitVec.msb_eq_false_iff_two_mul_lt, toNat_word e he]; omega

/-- Read signed it is the number itself. -/
theorem toInt_word (e : Nat) (he : e < 16384) : (BitVec.ofNat 32 e).toInt = (e : Int) := by
  rw [BitVec.toInt_eq_toNat_of_msb (msb_word e he), toNat_word e he]

/-- It is not below zero in the signed order. -/
theorem slt_zero_word (e : Nat) (he : e < 16384) : IntOp.cmpi .slt (BitVec.ofNat 32 e) 0#32 = 0#1 := by
  have h : (BitVec.ofNat 32 e).slt 0#32 = false := by
    rw [BitVec.slt_eq_decide, toInt_word e he]
    simp
  show BitVec.ofBool ((BitVec.ofNat 32 e).slt 0#32) = 0#1
  rw [h]; rfl

/-- Its truncated remainder by 1000000, as the host computes it, is itself. -/
theorem remsi_word (e : Nat) (he : e < 16384) :
    IntOp.remsi .host (BitVec.ofNat 32 e) 1000000#32 = BitVec.ofNat 32 e := by
  have hc : ¬ IntOp.SDivCorner (BitVec.ofNat 32 e) 1000000#32 := by
    rintro (h | ⟨_, h⟩) <;> exact absurd h (by decide)
  unfold IntOp.remsi
  rw [if_neg hc, BitVec.srem_eq, msb_word e he, show (1000000#32 : BitVec 32).msb = false from by decide]
  apply BitVec.eq_of_toNat_eq
  rw [BitVec.toNat_umod, toNat_word e he]
  exact Nat.mod_eq_of_lt (by simp; omega)

/-- Zero added to a word is the word. -/
theorem addi_zero_word (x : BitVec 32) : IntOp.addi 0#32 x = x := by
  unfold IntOp.addi; exact BitVec.zero_add x

end Cert.ReferenceIdeal.PushRun
-- ==== Proof.RefIndex.lean ====
/-
  What the reference's line leaves in the index array, in the result and in the two arguments.

  The index array is the column of the words 0, 1, …, 16383: the count plus the offset 0, reduced modulo 1000000
  the way the program's remainder function does it — the truncated remainder, with the divisor added back where the remainder is
  not zero and has the other sign than the divisor —, then wrapped as a negative index would be.  A count below
  16384 is its own remainder, is not negative, and 1000000 is not negative either, so neither correction applies.
  The result is the scatter of the values' rows into the bank at those indices; the arguments are not written.
-/
import proofs.«210832_g59760174956807_cont_9to1_m_134_14_alg».proof.Proof.RefOps
import proofs.«210832_g59760174956807_cont_9to1_m_134_14_alg».proof.Proof.RefWords
import Idealize.ShloMosaic.Lib.ValueIdx

noncomputable section

namespace Cert.ReferenceIdeal.PushRun

open Cert.ReferenceIdeal Cert.ReferenceIdeal.Gen Idealize.ShloMosaic Idealize.ShloMosaic.TcCoe Idealize.SL.Sem Idealize.ShloMosaic.StableHlo
open Idealize.ShloMosaic.ValueIdx

/-! ## The index computation, as named arrays -/

/-- The divisor: 1000000, replaced by 1 were it 0. -/
def dvs : IVec S_ 32 :=
  select (cmpi .eq (id (constantI S_ 32 1000000#32)) (constantI S_ 32 0#32)) (constantI S_ 32 1#32) (id (constantI S_ 32 1000000#32))

/-- The count 0 … 16383 with the offset 0 added. -/
def cnt : IVec S16384 32 := addi (broadcastInDim S16384 ![] bcast_S_S16384 (constantI S_ 32 0#32)) (iotaInDim S16384 32 0)

/-- The truncated remainder of the count by the divisor. -/
def rem0 : IVec S16384 32 := Host.remsi cnt (broadcastInDim S16384 ![] bcast_S_S16384 dvs)

/-- Where the remainder is corrected: it is not zero, and is negative exactly when the divisor is not. -/
def fix : IVec S16384 1 :=
  andi (cmpi .ne (cmpi .slt rem0 (broadcastInDim S16384 ![] bcast_S_S16384 (constantI S_ 32 0#32)))
        (broadcastInDim S16384 ![] bcast_S_S16384 (cmpi .slt dvs (constantI S_ 32 0#32))))
    (cmpi .ne rem0 (broadcastInDim S16384 ![] bcast_S_S16384 (constantI S_ 32 0#32)))

/-- The remainder: the truncated one, the divisor added where corrected. -/
def remd : IVec S16384 32 := select fix (addi rem0 (broadcastInDim S16384 ![] bcast_S_S16384 dvs)) rem0

/-- The index with a negative one wrapped: the bank's length added where it is below zero. -/
def wrapd : IVec S16384 32 :=
  select (cmpi .slt remd (broadcastInDim S16384 ![] bcast_S_S16384 (constantI S_ 32 0#32)))
    (addi remd (broadcastInDim S16384 ![] bcast_S_S16384 (constantI S_ 32 1000000#32))) remd

/-- The indices as a column. -/
def idxCol : IVec S16384x1 32 := broadcastInDim S16384x1 ![0] bcast_S16384_S16384x1_0 wrapd

/-! ## The arrays at an index -/

theorem dvs_apply (j : S_.Idx) : dvs j = 1000000#32 := rfl

theorem cnt_apply (i : S16384.Idx) : cnt i = BitVec.ofNat 32 (i 0).val := by
  show IntOp.addi 0#32 (BitVec.ofNat 32 (i 0).val) = _
  exact addi_zero_word _

theorem rem0_apply (i : S16384.Idx) : rem0 i = BitVec.ofNat 32 (i 0).val := by
  show IntOp.remsi .host (cnt i) 1000000#32 = _
  rw [cnt_apply]
  exact remsi_word _ (i 0).isLt

theorem fix_apply (i : S16384.Idx) : fix i = 0#1 := by
  show IntOp.andi (IntOp.cmpi .ne (IntOp.cmpi .slt (rem0 i) 0#32) (IntOp.cmpi .slt 1000000#32 0#32))
      (IntOp.cmpi .ne (rem0 i) 0#32) = 0#1
  rw [rem0_apply, slt_zero_word _ (i 0).isLt]
  show (0#1 : BitVec 1) &&& _ = 0#1
  exact BitVec.zero_and

theorem remd_apply (i : S16384.Idx) : remd i = BitVec.ofNat 32 (i 0).val := by
  show Scalar.select (fix i) _ (rem0 i) = _
  rw [fix_apply, select_zero, rem0_apply]

theorem wrapd_apply (i : S16384.Idx) : wrapd i = BitVec.ofNat 32 (i 0).val := by
  show Scalar.select (IntOp.cmpi .slt (remd i) 0#32) _ (remd i) = _
  rw [remd_apply, slt_zero_word _ (i 0).isLt, select_zero]

/-- The index array at row `e` holds the word `e`. -/
theorem idxCol_apply (j : S16384x1.Idx) : idxCol j = BitVec.ofNat 32 (j 0).val := by
  unfold idxCol broadcastInDim
  rw [wrapd_apply]
  rfl

/-! ## The line's results -/

variable {F : FTy → Type} [FloatOps F]

/-- The index array after the line is that column: each operation's result read at its own buffer, the typed
    references' transports the identity at these literal references. -/
theorem v9_eq (V : Valuation τ sig (Elt F)) : after ops V (main_v9 : DevRef τ sig) = idxCol := by
  simp only [ops, opsHead, opsCall, opsTail, List.cons_append, List.nil_append]
  after_results_simp
  rfl

attribute [local irreducible] Host.scatter in
/-- The result after the line is the scatter of the values into the bank at that column (the scatter is kept
    folded: only its operands are compared). -/
theorem v10_eq (V : Valuation τ sig (Elt F)) :
    after ops V (main_v10 : DevRef τ sig)
      = Host.scatter scatter_S1000000x64_S16384x1_S16384x64_1_0_0_1 (fun _ b => b) (V (main_arg0 : DevRef τ sig)) idxCol
          (V (main_arg1 : DevRef τ sig)) := by
  simp only [ops, opsHead, opsCall, opsTail, List.cons_append, List.nil_append]
  after_results_simp
  rfl

/-- The bank argument is not written. -/
theorem arg0_eq (V : Valuation τ sig (Elt F)) : after ops V (main_arg0 : DevRef τ sig) = V (main_arg0 : DevRef τ sig) := by
  simp only [ops, opsHead, opsCall, opsTail, List.cons_append, List.nil_append]
  after_results_simp

/-- The values argument is not written. -/
theorem arg1_eq (V : Valuation τ sig (Elt F)) : after ops V (main_arg1 : DevRef τ sig) = V (main_arg1 : DevRef τ sig) := by
  simp only [ops, opsHead, opsCall, opsTail, List.cons_append, List.nil_append]
  after_results_simp

end Cert.ReferenceIdeal.PushRun

end
-- ==== Proof.LibScatterSet.lean ====
/-
  A scatter whose body returns the update (an overwrite), read at one index of its result.

  The scatter is a left fold over the update indices in row-major order.  Each step looks up the result index the
  update lands on: if that index is inside the operand the step overwrites the result there with the update's
  element, and otherwise it changes nothing.  So the result at an index `i` is the element of the LAST update
  landing on `i`, and the operand's own element when no update lands there.  When at most one update lands on `i`
  — in particular when the in-range landing indices are pairwise distinct — "the last" is "the" update.

  The first section is about any such fold over a list; the second instantiates it at the scatter.
-/
import Idealize.ShloMosaic.PureOps.ShapeOps

namespace Cert.ScatterSet

open Idealize.ShloMosaic

/-! ## A left fold of overwrites -/

section Fold

variable {ι β α : Type} (g : ι → Option β) (v : ι → α) (step : (β → α) → ι → β → α)

/-- What is asked of a step: where `n` lands on `i` the step puts `v n` at `i` and leaves every other index;
    where `n` lands nowhere the step changes nothing. -/
structure Overwrites : Prop where
  hit : ∀ (r : β → α) (n : ι) (i : β), g n = some i → step r n i = v n
  other : ∀ (r : β → α) (n : ι) (i j : β), g n = some i → j ≠ i → step r n j = r j
  miss : ∀ (r : β → α) (n : ι), g n = none → step r n = r

variable {g v step}

/-- The fold at `j`: the value of some listed `n` landing on `j`, or, when no listed `n` lands on `j`, what
    was there. -/
theorem foldl_cases (h : Overwrites g v step) (x : β → α) (j : β) :
    ∀ L : List ι,
      (∃ n ∈ L, g n = some j ∧ L.foldl step x j = v n) ∨ ((∀ n ∈ L, g n ≠ some j) ∧ L.foldl step x j = x j) := by
  intro L
  induction L using List.reverseRecOn with
  | nil => exact Or.inr ⟨fun n hn => absurd hn List.not_mem_nil, rfl⟩
  | append_singleton L n ih =>
    rw [List.foldl_append, List.foldl_cons, List.foldl_nil]
    cases hg : g n with
    | none =>
      rw [h.miss _ _ hg]
      rcases ih with ⟨n', hn', hgn', hv⟩ | ⟨hall, hv⟩
      · exact Or.inl ⟨n', List.mem_append_left _ hn', hgn', hv⟩
      · refine Or.inr ⟨fun k hk => ?_, hv⟩
        rcases List.mem_append.mp hk with hk | hk
        · exact hall k hk
        · rw [List.mem_singleton.mp hk, hg]; exact fun e => by cases e
    | some i =>
      by_cases hji : j = i
      · subst hji
        exact Or.inl ⟨n, List.mem_append_right _ (List.mem_singleton_self n), hg, h.hit _ _ _ hg⟩
      · rw [h.other _ _ _ _ hg hji]
        rcases ih with ⟨n', hn', hgn', hv⟩ | ⟨hall, hv⟩
        · exact Or.inl ⟨n', List.mem_append_left _ hn', hgn', hv⟩
        · refine Or.inr ⟨fun k hk => ?_, hv⟩
          rcases List.mem_append.mp hk with hk | hk
          · exact hall k hk
          · rw [List.mem_singleton.mp hk, hg]; exact fun e => hji (Option.some.inj e).symm

/-- When `n₀` is the one element landing on `j`, and it is listed, the fold at `j` is its value. -/
theorem foldl_hit (h : Overwrites g v step) (x : β → α) (j : β) (L : List ι) (n₀ : ι) (hn₀ : n₀ ∈ L)
    (hg : g n₀ = some j) (huniq : ∀ n, g n = some j → n = n₀) : L.foldl step x j = v n₀ := by
  rcases foldl_cases h x j L with ⟨n, _, hgn, hv⟩ | ⟨hall, _⟩
  · rw [hv, huniq n hgn]
  · exact absurd hg (hall n₀ hn₀)

/-- When nothing listed lands on `j`, the fold at `j` is what was there. -/
theorem foldl_miss (h : Overwrites g v step) (x : β → α) (j : β) (L : List ι) (hmiss : ∀ n ∈ L, g n ≠ some j) :
    L.foldl step x j = x j := by
  rcases foldl_cases h x j L with ⟨n, hn, hgn, _⟩ | ⟨_, hv⟩
  · exact absurd hgn (hmiss n hn)
  · exact hv

end Fold

/-! ## The scatter -/

section Scatter

variable {s si u : Shape} {α : Type} {w : Nat}

/-- The scatter's step, with the body that returns the update, is a fold of overwrites: update number `n` (in
    row-major order) lands on its result index and carries its own element. -/
theorem overwrites (d : ScatterDims s si u) (idx : IVec si w) (upd : u.Idx → α) :
    Overwrites (fun n : Fin u.numel => d.resultIdx? (u.rowMajor.symm n) idx) (fun n => upd (u.rowMajor.symm n))
      (fun (r : s.Idx → α) (n : Fin u.numel) =>
        match d.resultIdx? (u.rowMajor.symm n) idx with
        | some i => fun i' => if i' = i then (fun _ b => b) (r i) (upd (u.rowMajor.symm n)) else r i'
        | none => r) where
  hit r n i hg := by
    dsimp only
    rw [hg]
    exact if_pos rfl
  other r n i j hg hji := by
    dsimp only
    rw [hg]
    exact if_neg hji
  miss r n hg := by
    dsimp only
    rw [hg]

/-- The overwriting scatter at a result index on which exactly one update lands: that update's element. -/
theorem scatter_set_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  unfold Host.scatter
  refine (foldl_hit (overwrites d idx upd) x i _ (u.rowMajor j) (List.mem_finRange _) ?_ ?_).trans ?_
  · show d.resultIdx? (u.rowMajor.symm (u.rowMajor j)) idx = some i
    rw [Equiv.symm_apply_apply]; exact hj
  · intro n hn
    have := huniq _ hn
    rw [← this, Equiv.apply_symm_apply]
  · show upd (u.rowMajor.symm (u.rowMajor j)) = upd j
    rw [Equiv.symm_apply_apply]

/-- The overwriting scatter at a result index on which no update lands: the operand's element. -/
theorem scatter_set_miss (d : ScatterDims s si u) (x : s.Idx → α) (idx : IVec si w) (upd : u.Idx → α)
    (i : s.Idx) (hmiss : ∀ j : u.Idx, d.resultIdx? j idx ≠ some i) :
    Host.scatter d (fun _ b => b) x idx upd i = x i := by
  unfold Host.scatter
  exact foldl_miss (overwrites d idx upd) x i _ fun n _ => hmiss _

end Scatter

end Cert.ScatterSet
-- ==== Proof.RefScatter.lean ====
/-
  The scatter of the values' rows into the bank at the row indices 0, 1, …, 16383 is the bank after the push.

  The scatter's dimension numbers say: update element (e, c) lands on row (the e-th index) + 0, column 0 + c of the
  operand, when that is inside it.  With the e-th index the word `e`, read signed as the number `e`, update element
  (e, c) lands on (e, c), always inside.  So distinct update elements land on distinct result elements, a result
  element (r, c) with r < 16384 receives exactly update element (r, c), and one with r ≥ 16384 receives none.
-/
import proofs.«210832_g59760174956807_cont_9to1_m_134_14_alg».proof.Proof.Gen.ReferenceIdeal
import proofs.«210832_g59760174956807_cont_9to1_m_134_14_alg».proof.Proof.LibScatterSet
import proofs.«210832_g59760174956807_cont_9to1_m_134_14_alg».proof.Proof.RefWords
import proofs.«210832_g59760174956807_cont_9to1_m_134_14_alg».proof.Proof.Spec
import Idealize.ShloMosaic.Lib.ValueIdx

namespace Cert.ReferenceIdeal.PushRun

open Cert.ReferenceIdeal Cert.ReferenceIdeal.Gen Idealize.ShloMosaic Idealize.ShloMosaic.ValueIdx

/-- The program's scatter dimension numbers: the one index of an index vector names the operand's row; an update's
    second axis is the window, over the operand's columns. -/
abbrev sd : ScatterDims S1000000x64 S16384x1 S16384x64 := scatter_S1000000x64_S16384x1_S16384x64_1_0_0_1

section

variable (idx : IVec S16384x1 32) (hidx : ∀ k : S16384x1.Idx, idx k = BitVec.ofNat 32 (k 0).val)

include hidx in
/-- The window of update element `j` starts, on the row axis, at the number its row's index holds: its own row. -/
theorem start0 (j : S16384x64.Idx) : sd.start j idx 0 = ((j 0).val : Int) := by
  unfold ScatterDims.start
  rw [dif_pos (show (0 : Fin 2) ∈ sd.scatterDimsToOperandDims from List.mem_singleton.mpr rfl), hidx]
  exact toInt_word (j 0).val (idx2_lt0 j)

/-- On the column axis, which no index names, it starts at 0. -/
theorem start1 (j : S16384x64.Idx) : sd.start j idx 1 = 0 := by
  unfold ScatterDims.start
  rw [dif_neg (show (1 : Fin 2) ∉ sd.scatterDimsToOperandDims from by decide)]

/-- The row axis is inserted: no window coordinate. -/
theorem window0 (j : S16384x64.Idx) : sd.window j 0 = 0 := by
  unfold ScatterDims.window
  rw [dif_neg (show (0 : Fin 2) ∉ sd.sKept from by decide)]

/-- The column axis takes the update's column. -/
theorem window1 (j : S16384x64.Idx) : sd.window j 1 = (j 1).val := by
  unfold ScatterDims.window
  rw [dif_pos (show (1 : Fin 2) ∈ sd.sKept from by decide)]
  rfl

include hidx in
/-- Update element (e, c) lands on result element (e, c). -/
theorem resultIdx_eq (j : S16384x64.Idx) :
    sd.resultIdx? j idx
      = some (ix2 (⟨(j 0).val, Nat.lt_trans (idx2_lt0 j) (by decide)⟩ : Fin 1000000) (j 1 : Fin 64)) := by
  have h0 := idx2_lt0 j
  have h1 := idx2_lt1 j
  have h : ∀ a, 0 ≤ sd.start j idx a + sd.window j a ∧ sd.start j idx a + sd.window j a < S1000000x64.size a := by
    intro a
    match a with
    | ⟨0, _⟩ =>
      show 0 ≤ sd.start j idx 0 + (sd.window j 0 : Int) ∧ sd.start j idx 0 + (sd.window j 0 : Int) < ((1000000 : Nat) : Int)
      rw [start0 idx hidx, window0]; omega
    | ⟨1, _⟩ =>
      show 0 ≤ sd.start j idx 1 + (sd.window j 1 : Int) ∧ sd.start j idx 1 + (sd.window j 1 : Int) < ((64 : Nat) : Int)
      rw [start1, window1]; omega
  unfold ScatterDims.resultIdx?
  rw [dif_pos h]
  refine congrArg some (funext fun a => ?_)
  match a with
  | ⟨0, _⟩ =>
    refine Fin.ext ?_
    show (sd.start j idx 0 + (sd.window j 0 : Int)).toNat = (j 0).val
    rw [start0 idx hidx, window0]; omega
  | ⟨1, _⟩ =>
    refine Fin.ext ?_
    show (sd.start j idx 1 + (sd.window j 1 : Int)).toNat = (j 1).val
    rw [start1, window1]; omega

include hidx in
/-- The scatter at those indices, overwriting, is the push: rows below 16384 are the values', the others the
    bank's. -/
theorem scatter_pushed {α : Type} (x : S1000000x64.Idx → α) (u : S16384x64.Idx → α) :
    Host.scatter sd (fun _ b => b) x idx u = Cert.Push.pushed x u := by
  funext i
  by_cases h : (i 0).val < 16384
  · have hp : Cert.Push.pushed x u i = u (ix2 (⟨(i 0).val, h⟩ : Fin 16384) (i 1 : Fin 64)) := by
      unfold Cert.Push.pushed; exact dif_pos h
    rw [hp]
    refine Cert.ScatterSet.scatter_set_hit sd x idx u i _ ?_ ?_
    · rw [resultIdx_eq idx hidx]
      refine congrArg some (funext fun a => ?_)
      match a with
      | ⟨0, _⟩ => rfl
      | ⟨1, _⟩ => rfl
    · intro j' hj'
      rw [resultIdx_eq idx hidx] at hj'
      have e := Option.some.inj hj'
      funext a
      match a with
      | ⟨0, _⟩ => exact Fin.ext (congrArg (fun t : S1000000x64.Idx => (t 0).val) e)
      | ⟨1, _⟩ => exact Fin.ext (congrArg (fun t : S1000000x64.Idx => (t 1).val) e)
  · have hp : Cert.Push.pushed x u i = x i := by unfold Cert.Push.pushed; exact dif_neg h
    rw [hp]
    refine Cert.ScatterSet.scatter_set_miss sd x idx u i fun j hj => ?_
    rw [resultIdx_eq idx hidx] at hj
    have e : (j 0).val = (i 0).val := congrArg (fun t : S1000000x64.Idx => (t 0).val) (Option.some.inj hj)
    have h0 := idx2_lt0 j
    exact h (by omega)

end

end Cert.ReferenceIdeal.PushRun
-- ==== Proof.RefRun.lean ====
/-
  The reference's run and its value.

  Every weakly fair execution of the reference's @main terminates; its result is then the bank after the push — row
  `r` the values' row `r` for `r < 16384`, the bank's own row otherwise — and its two arguments are unchanged.
  The run is the straight line's; the result buffer holds the scatter of the values at the index column, which is
  the push; the arguments are written by no operation.  Nothing is computed with the numbers, so the statement holds
  for every kind of float values.
-/
import proofs.«210832_g59760174956807_cont_9to1_m_134_14_alg».proof.Proof.RefIndex
import proofs.«210832_g59760174956807_cont_9to1_m_134_14_alg».proof.Proof.RefScatter

noncomputable section

namespace Cert.ReferenceIdeal.PushRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    reference's @main terminates with the result the pushed bank and the arguments unchanged. -/
theorem run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => ∀ c : Dev Cert.ReferenceIdeal.nD,
      r.2.mem ((c.tc : Thread Cert.ReferenceIdeal.nD Cert.ReferenceIdeal.τ).loc Cert.ReferenceIdeal.main_v10)
          = Cert.Push.pushed (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨(h c main_v10).trans ((v10_eq _).trans (scatter_pushed idxCol idxCol_apply _ _)),
        (h c main_arg0).trans (arg0_eq _), (h c main_arg1).trans (arg1_eq _)⟩)
    (run_main m g)

end Cert.ReferenceIdeal.PushRun

end
-- ==== Proof.lean ====
/-
  The claim: a push into a memory bank, by a SparseCore kernel and by a scatter, is one function.

  The bank holds 1000000 rows of 64 numbers and 16384 new rows are pushed at its front. The reference overwrites the rows
  `(0 + k) mod 1000000`, `k < 16384`, by a scatter: the indices are `0 … 16383`, pairwise distinct and in range, so row
  `r` of the result is row `r` of the values when `r < 16384` and the bank's row otherwise. The kernel works on the
  transposes: a TensorCore kernel copies the transposed bank block by block, then the 32 vector subcores of the two
  SparseCores each copy two rows of the transposed values over the first 16384 columns of the same two rows of the copy,
  and the result is transposed back — the same function of the two arrays (`Cert.Push.pushed`). No number is computed
  with, so the statement holds for machine words and for extended reals alike, and the precondition is never opened.

  The kernel program's run is proved once for any float instance (the tiles' task, the split of the arrays among the
  tiles, @main on the TensorCore with the block copy as a region, the launch); its three uses here are the word-level
  frame, the ideal frame, and the ideal run with the result named. The reference's run names the same function.
-/
import proofs.«210832_g59760174956807_cont_9to1_m_134_14_alg».proof.Defs
import proofs.«210832_g59760174956807_cont_9to1_m_134_14_alg».proof.Proof.Gen.Kernel
import proofs.«210832_g59760174956807_cont_9to1_m_134_14_alg».proof.Proof.Gen.KernelIdeal
import proofs.«210832_g59760174956807_cont_9to1_m_134_14_alg».proof.Proof.Gen.ReferenceIdeal
import proofs.«210832_g59760174956807_cont_9to1_m_134_14_alg».proof.Proof.Gen.Pre_finite_inputs
import proofs.«210832_g59760174956807_cont_9to1_m_134_14_alg».proof.Proof.PushRunW
import proofs.«210832_g59760174956807_cont_9to1_m_134_14_alg».proof.Proof.PushRunI
import proofs.«210832_g59760174956807_cont_9to1_m_134_14_alg».proof.Proof.RefRun
import Idealize.ShloMosaic.Adequacy
import Idealize.ShloMosaic.Init

noncomputable section

namespace Cert.Proof

open Idealize.ShloMosaic Idealize.SL.Sem

/-- The word-level kernel program runs to the end and leaves its arguments as they were. -/
theorem frame_kernel : Cert.frame_Kernel (hKernel := Cert.Kernel.Gen.facts) (hPre_finite_inputs := Cert.Pre_finite_inputs.Gen.facts) := fun m g _ =>
  (θ_run Cert.Kernel.defs _ _).mono (fun _ h c => ⟨(h c).2.1, (h c).2.2⟩) (Cert.Kernel.Push.run_main (F := Bits) m g)

/-- So does the idealized one. -/
theorem frame_kernelIdeal : Cert.frame_KernelIdeal (hKernelIdeal := Cert.KernelIdeal.Gen.facts) (hPre_finite_inputs := Cert.Pre_finite_inputs.Gen.facts) := fun m g _ =>
  (θ_run Cert.KernelIdeal.defs _ _).mono (fun _ h c => ⟨(h c).2.1, (h c).2.2⟩) (Cert.KernelIdeal.Push.run_main (F := Ideal) m g)

/-- And the reference. -/
theorem frame_referenceIdeal : Cert.frame_ReferenceIdeal (hReferenceIdeal := Cert.ReferenceIdeal.Gen.facts) (hPre_finite_inputs := Cert.Pre_finite_inputs.Gen.facts) := fun m g _ =>
  (θ_run Cert.ReferenceIdeal.defs _ _).mono (fun _ h c => (h c).2) (Cert.ReferenceIdeal.PushRun.run m g)

/-- Both idealized programs end with the bank after the push, as one function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := fun m g m' g' _ hagree =>
  ⟨fun c => Cert.Push.pushed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Push.run_main (F := Ideal) m g,
    (θ_run Cert.ReferenceIdeal.defs _ _).mono (fun _ h c => ⟨by rw [(h c).1, (hagree c).1, (hagree c).2], (h c).2.1, (h c).2.2⟩)
      (Cert.ReferenceIdeal.PushRun.run m' g')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
